-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x256 : Shape := ⟨2, ![128, 256]⟩
abbrev S256 : Shape := ⟨1, ![256]⟩
abbrev S256x100 : Shape := ⟨2, ![256, 100]⟩
abbrev S100 : Shape := ⟨1, ![100]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x100 : S_.BroadcastsInDim S256x100 (![] : Fin 0 → Fin S256x100.rank)
  reducesTo_S256x100_S_d0_1 : S256x100.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg5 : FVec F S256x100 .f32) (main_arg6 : FVec F S256x100 .f32) (main_arg7 : FVec F S100 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x100 .f32 := Host.absf main_arg5
  let main_cst_6 : FVec F S_ .f32 := constant S_ .f32 0x7F800000#32
  let main_v20 : FVec F S256x100 .f32 := broadcastInDim S256x100 ![] bcast_S_S256x100 main_cst_6
  let main_v21 : IVec S256x100 1 := cmpf .olt main_v19 main_v20
  let main_c_7 : IVec S_ 1 := constantI S_ 1 1#1
  let main_v22 : IVec S_ 1 := (fun x v => Host.reduce IntOp.andi x v reducesTo_S256x100_S_d0_1 h_S_) main_v21 main_c_7
  let main_v23 : IVec S_ 1 := andi main_v18 main_v22
  let main_v24 : FVec F S256x100 .f32 := Host.absf main_arg6
  let main_cst_8 : FVec F S_ .f32 := constant S_ .f32 0x7F800000#32
  let main_v25 : FVec F S256x100 .f32 := broadcastInDim S256x100 ![] bcast_S_S256x100 main_cst_8
  let main_v26 : IVec S256x100 1 := cmpf .olt main_v24 main_v25
  let main_c_9 : IVec S_ 1 := constantI S_ 1 1#1
  let main_v27 : IVec S_ 1 := (fun x v => Host.reduce IntOp.andi x v reducesTo_S256x100_S_d0_1 h_S_) main_v26 main_c_9
  let main_v28 : IVec S_ 1 := andi main_v23 main_v27
  let main_v29 : FVec F S100 .f32 := Host.absf main_arg7
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x256 .f32) (main_arg3 : FVec F S128x256 .f32) (main_arg4 : FVec F S256 .f32) (main_arg5 : FVec F S256x100 .f32) (main_arg6 : FVec F S256x100 .f32) (main_arg7 : FVec F S100 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x256 : Shape := ⟨2, ![128, 256]⟩
abbrev S256 : Shape := ⟨1, ![256]⟩
abbrev S256x100 : Shape := ⟨2, ![256, 100]⟩
abbrev S100 : Shape := ⟨1, ![100]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x256 : Shape := ⟨2, ![1, 256]⟩
abbrev S1x100 : Shape := ⟨2, ![1, 100]⟩
abbrev S100000x256 : Shape := ⟨2, ![100000, 256]⟩
abbrev S100000x100 : Shape := ⟨2, ![100000, 100]⟩
abbrev S4000x128 : Shape := ⟨2, ![4000, 128]⟩
abbrev S4000x1 : Shape := ⟨2, ![4000, 1]⟩
abbrev S4000x256 : Shape := ⟨2, ![4000, 256]⟩
abbrev S4000x100 : Shape := ⟨2, ![4000, 100]⟩
abbrev S640000x100 : Shape := ⟨2, ![640000, 100]⟩

abbrev nBuf : Space → Nat
  | .hbm => 60
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x100, .f32⟩
  | .hbm, ⟨6, _⟩ => ⟨S256x100, .f32⟩
  | .hbm, ⟨7, _⟩ => ⟨S100, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .f32⟩
  | .hbm, ⟨35, _⟩ => ⟨S100000x128, .f32⟩
  | .hbm, ⟨36, _⟩ => ⟨S640000x1, .i32⟩
  | .hbm, ⟨37, _⟩ => ⟨S100000x128, .f32⟩
  | .hbm, ⟨38, _⟩ => ⟨S128x256, .bf16⟩
  | .hbm, ⟨39, _⟩ => ⟨S128x256, .bf16⟩
  | .hbm, ⟨40, _⟩ => ⟨S256x100, .bf16⟩
  | .hbm, ⟨41, _⟩ => ⟨S256x100, .bf16⟩
  | .hbm, ⟨42, _⟩ => ⟨S1x256, .f32⟩
  | .hbm, ⟨43, _⟩ => ⟨S1x100, .f32⟩
  | .hbm, ⟨44, _⟩ => ⟨S100000x256, .f32⟩
  | .hbm, ⟨45, _⟩ => ⟨S100000x100, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x100, .f32⟩
  | .hbm, ⟨55, _⟩ => ⟨S_, .f32⟩
  | .hbm, ⟨56, _⟩ => ⟨S100000x100, .f32⟩
  | .hbm, ⟨57, _⟩ => ⟨S640000x1, .i32⟩
  | .hbm, ⟨58, _⟩ => ⟨S100000x100, .f32⟩
  | .hbm, ⟨59, _⟩ => ⟨S100000x100, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x256, .bf16⟩
  | .local _ .vmem, ⟨7, _⟩ => ⟨S128x256, .bf16⟩
  | .local _ .vmem, ⟨8, _⟩ => ⟨S1x256, .f32⟩
  | .local _ .vmem, ⟨9, _⟩ => ⟨S256x100, .bf16⟩
  | .local _ .vmem, ⟨10, _⟩ => ⟨S4000x256, .f32⟩
  | .local _ .vmem, ⟨11, _⟩ => ⟨S4000x256, .f32⟩
  | .local _ .vmem, ⟨12, _⟩ => ⟨S4000x100, .f32⟩
  | .local _ .vmem, ⟨13, _⟩ => ⟨S4000x100, .f32⟩
  | .local _ .vmem, ⟨14, _⟩ => ⟨S4000x100, .f32⟩
  | .local _ .vmem, ⟨15, _⟩ => ⟨S4000x100, .f32⟩
  | .local _ .vmem, ⟨16, _⟩ => ⟨S4000x1, .f32⟩
  | .local _ .vmem, ⟨17, _⟩ => ⟨S4000x1, .f32⟩
  | .local _ .vmem, ⟨18, _⟩ => ⟨S4000x256, .f32⟩
  | .local _ .vmem, ⟨19, _⟩ => ⟨S4000x256, .f32⟩
  | .local _ .vmem, ⟨20, _⟩ => ⟨S256x100, .bf16⟩
  | .local _ .vmem, ⟨21, _⟩ => ⟨S1x100, .f32⟩
  | .local _ .vmem, ⟨22, _⟩ => ⟨S4000x100, .f32⟩
  | .local _ .vmem, ⟨23, _⟩ => ⟨S4000x100, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29_0 : Ref sig .tc := ⟨.hbm, 44, rfl⟩
abbrev main_v29_1 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x100 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x100 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x100 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x100 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  shapeCasts_S100000_S100000x1 : S100000.ShapeCasts S100000x1
  bcast_S_S100000x128 : S_.BroadcastsInDim S100000x128 (![] : Fin 0 → Fin S100000x128.rank)
  bitsLt_bf16_f32 : FTy.bits .bf16 < FTy.bits .f32
  shapeCasts_S256_S1x256 : S256.ShapeCasts S1x256
  shapeCasts_S100_S1x100 : S100.ShapeCasts S1x100
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  inb_S256x100_S256x100_0_0 : ∀ a, (![0, 0] : Fin 2 → Nat) a + S256x100.size a ≤ S256x100.size a
  h_S256x100 : 0 < S256x100.numel
  shapeCasts_S256x100_S256x100 : S256x100.ShapeCasts S256x100
  inb_S4000x100_S4000x100_0_0 : ∀ a, (![0, 0] : Fin 2 → Nat) a + S4000x100.size a ≤ S4000x100.size a
  h_S4000x100 : 0 < S4000x100.numel
  bcast_S_S100000x100 : S_.BroadcastsInDim S100000x100 (![] : Fin 0 → Fin S100000x100.rank)
  shapeCasts_S4000x100_S4000x100 : S4000x100.ShapeCasts S4000x100
  broadcasts_S4000x1_S4000x100 : S4000x1.Broadcasts S4000x100
  shapeCasts_S4000x256_S4000x256 : S4000x256.ShapeCasts S4000x256
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S4000x100 : S1x100.Broadcasts S4000x100
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S4000x128_S128x256_S4000x256_1_0_0_1_n_n_wf : DotDims.WF S4000x128 S128x256 S4000x256 [1] [0] [0] [1] [] []
  dot_S4000x256_S256x100_S4000x100_1_0_0_1_n_n_wf : DotDims.WF S4000x256 S256x100 S4000x100 [1] [0] [0] [1] [] []
  gather_S100000x100_S640000x1_S640000x100_1_0_n_n_0_1_1100_wf : GatherDims.WF S100000x100 S640000x1 S640000x100 [1] [0] [] [0] [] 1 ![1, 100]
  scatter_S100000x100_S640000x1_S640000x100_1_0_0_1_wf : ScatterDims.WF S100000x100 S640000x1 S640000x100 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x100.size a ≤ S256x100.size a
  hwx0_6 : ∀ i : grid0.Coords, EltTy.bits .bf16 = 32 ∨ (Rect.block (s := S256x100) S256x100.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x256.size a ≤ S100000x256.size a
  hwx0_7 : ∀ i : grid0.Coords, EltTy.bits .f32 = 32 ∨ (Rect.block (s := S100000x256) S4000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x100.size a ≤ S100000x100.size a
  hwx0_8 : ∀ i : grid0.Coords, EltTy.bits .f32 = 32 ∨ (Rect.block (s := S100000x100) S4000x100.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x100.size a ≤ S100000x100.size a
  hwx1_0 : ∀ i : grid1.Coords, EltTy.bits .f32 = 32 ∨ (Rect.block (s := S100000x100) S4000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S100000x256.size a
  hwx1_2 : ∀ i : grid1.Coords, EltTy.bits .f32 = 32 ∨ (Rect.block (s := S100000x256) S4000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x100.size a ≤ S256x100.size a
  hwx1_3 : ∀ i : grid1.Coords, EltTy.bits .bf16 = 32 ∨ (Rect.block (s := S256x100) S256x100.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x100.size a ≤ S1x100.size a
  hwx1_4 : ∀ i : grid1.Coords, EltTy.bits .f32 = 32 ∨ (Rect.block (s := S1x100) S1x100.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x100.size a ≤ S100000x100.size a
  hwx1_5 : ∀ i : grid1.Coords, EltTy.bits .f32 = 32 ∨ (Rect.block (s := S100000x100) S4000x100.size (cc1_transform_5 i) (hinb1_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x100_S4000x100_1_0_0_1_n_n : DotDims S4000x256 S256x100 S4000x100 where
  lhsContracting := [1]
  rhsContracting := [0]
  lhsNonContracting := [0]
  rhsNonContracting := [1]
  lhsBatch := []
  rhsBatch := []
  wf := dot_S4000x256_S256x100_S4000x100_1_0_0_1_n_n_wf
def gather_S100000x100_S640000x1_S640000x100_1_0_n_n_0_1_1100 : GatherDims S100000x100 S640000x1 S640000x100 where
  offsetDims := [1]
  collapsedSliceDims := [0]
  operandBatchingDims := []
  startIndicesBatchingDims := []
  startIndexMap := [0]
  indexVectorDim := 1
  sliceSizes := ![1, 100]
  wf := gather_S100000x100_S640000x1_S640000x100_1_0_n_n_0_1_1100_wf
def scatter_S100000x100_S640000x1_S640000x100_1_0_0_1 : ScatterDims S100000x100 S640000x1 S640000x100 where
  updateWindowDims := [1]
  insertedWindowDims := [0]
  scatterDimsToOperandDims := [0]
  indexVectorDim := 1
  wf := scatter_S100000x100_S640000x1_S640000x100_1_0_0_1_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S256x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29_0) S4000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v29_1) S4000x100.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v39) S4000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29_0) S4000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S256x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S4000x100.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x256 : Shape := ⟨2, ![128, 256]⟩
abbrev S256 : Shape := ⟨1, ![256]⟩
abbrev S256x100 : Shape := ⟨2, ![256, 100]⟩
abbrev S100 : Shape := ⟨1, ![100]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S640000x256 : Shape := ⟨2, ![640000, 256]⟩
abbrev S100000x100 : Shape := ⟨2, ![100000, 100]⟩
abbrev S1x100 : Shape := ⟨2, ![1, 100]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x100, .f32⟩
  | .hbm, ⟨6, _⟩ => ⟨S256x100, .f32⟩
  | .hbm, ⟨7, _⟩ => ⟨S100, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x256, .f32⟩
  | .hbm, ⟨38, _⟩ => ⟨S100000x256, .f32⟩
  | .hbm, ⟨39, _⟩ => ⟨S100000x256, .f32⟩
  | .hbm, ⟨40, _⟩ => ⟨S1x256, .f32⟩
  | .hbm, ⟨41, _⟩ => ⟨S100000x256, .f32⟩
  | .hbm, ⟨42, _⟩ => ⟨S100000x256, .f32⟩
  | .hbm, ⟨43, _⟩ => ⟨S_, .f32⟩
  | .hbm, ⟨44, _⟩ => ⟨S100000x256, .f32⟩
  | .hbm, ⟨45, _⟩ => ⟨S100000x256, .f32⟩
  | .hbm, ⟨46, _⟩ => ⟨S1x640000, .i32⟩
  | .hbm, ⟨47, _⟩ => ⟨S640000, .i32⟩
  | .hbm, ⟨48, _⟩ => ⟨S1x640000, .i32⟩
  | .hbm, ⟨49, _⟩ => ⟨S640000, .i32⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x256, .f32⟩
  | .hbm, ⟨59, _⟩ => ⟨S_, .f32⟩
  | .hbm, ⟨60, _⟩ => ⟨S100000x256, .f32⟩
  | .hbm, ⟨61, _⟩ => ⟨S640000x1, .i32⟩
  | .hbm, ⟨62, _⟩ => ⟨S100000x256, .f32⟩
  | .hbm, ⟨63, _⟩ => ⟨S_, .f32⟩
  | .hbm, ⟨64, _⟩ => ⟨S640000, .f32⟩
  | .hbm, ⟨65, _⟩ => ⟨S_, .f32⟩
  | .hbm, ⟨66, _⟩ => ⟨S100000, .f32⟩
  | .hbm, ⟨67, _⟩ => ⟨S640000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x256, .f32⟩
  | .hbm, ⟨74, _⟩ => ⟨S100000x256, .f32⟩
  | .hbm, ⟨75, _⟩ => ⟨S100000x100, .f32⟩
  | .hbm, ⟨76, _⟩ => ⟨S100000x100, .f32⟩
  | .hbm, ⟨77, _⟩ => ⟨S100000x100, .f32⟩
  | .hbm, ⟨78, _⟩ => ⟨S1x100, .f32⟩
  | .hbm, ⟨79, _⟩ => ⟨S100000x100, .f32⟩
  | .hbm, ⟨80, _⟩ => ⟨S100000x100, .f32⟩
  | .hbm, ⟨81, _⟩ => ⟨S100000x100, .f32⟩
  | .hbm, ⟨82, _⟩ => ⟨S100000x100, .f32⟩
  | .hbm, ⟨83, _⟩ => ⟨S_, .f32⟩
  | .hbm, ⟨84, _⟩ => ⟨S100000x100, .f32⟩
  | .hbm, ⟨85, _⟩ => ⟨S100000x100, .f32⟩
  | .hbm, ⟨86, _⟩ => ⟨S_, .f32⟩
  | .hbm, ⟨87, _⟩ => ⟨S100000x100, .f32⟩
  | .hbm, ⟨88, _⟩ => ⟨S100000x100, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  bcast_S_S100000x100 : S_.BroadcastsInDim S100000x100 (![] : Fin 0 → Fin S100000x100.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x256_S100000x256_1_0_0_1_n_n_wf : DotDims.WF S100000x128 S128x256 S100000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S100000x256_S256x100_S100000x100_1_0_0_1_n_n_wf : DotDims.WF S100000x256 S256x100 S100000x100 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S100000x256_S256x100_S100000x100_1_0_0_1_n_n : DotDims S100000x256 S256x100 S100000x100 where
  lhsContracting := [1]
  rhsContracting := [0]
  lhsNonContracting := [0]
  rhsNonContracting := [1]
  lhsBatch := []
  rhsBatch := []
  wf := dot_S100000x256_S256x100_S100000x100_1_0_0_1_n_n_wf

class Facts : Prop extends Facts₀ where

variable [Facts]
-- ==== Proof.RunValue.lean ====
/-
  The idealized kernel's run with its result named.

  The program is two pipelined regions among two stretches of host operations. Running it from a memory `m` ends, on
  every core, with every unscoped buffer at the contents the last region leaves (`W4`): the host stretches folded over
  the launch memory, each region's arrays replaced by what its write-backs leave. In particular the result buffer ends
  at `W4`'s value there and the eight argument arrays end as launched.
-/
import proofs.«127952_j55009941127683_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from `m` terminates without a fault; the result buffer ends at `W4`'s contents and the
    arguments end as launched. -/
theorem run_value : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.Bodies.lean ====
/-
  What the two kernel bodies compute, entry by entry, in exact arithmetic.

  Layer 1, on a block of 4000 nodes: with `a` the block of aggregated neighbour rows, `s` the column of reciprocal counts,
  `x` the block of the nodes' own rows, `wl`, `wr` the two weight matrices, `b` the bias row and `w2` the projecting matrix,
      h(p, j) = max(∑_k (a(p, k) · s(p)) · wl(k, j) + ∑_k x(p, k) · wr(k, j) + b(j), 0)      and      proj(p, c) = ∑_j h(p, j) · w2(j, c).
  Layer 2: with `g` the block of aggregated projected rows and `h` the block of hidden rows,
      out(p, c) = logistic(g(p, c) · s(p) + ∑_j h(p, j) · w(j, c) + b(c)).
  A change of float format is the identity on exact values, a matrix product into a zero accumulator is the plain sum
  over the contracted axis, and the broadcasts read the column at the row and the bias row at the column.
-/
import proofs.«127952_j55009941127683_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«127952_j55009941127683_2_alg».proof.Proof.LibLayout
import proofs.«127952_j55009941127683_2_alg».proof.Proof.LibPlainDot

noncomputable section

open scoped BigOperators

namespace Cert.KernelIdeal.Bodies

open Cert.KernelIdeal Cert.KernelIdeal.Gen Idealize.ShloMosaic Idealize.ShloMosaic.ValueIdx

/-! ## The two plain matrix products -/

theorem dotA_l0 (i q) : (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem dotA_l1 (i q) : (dot_S4000x128_S128x256_S4000x256_1_0_0_1_n_n.lhsIdx i q 1).val = (q ⟨0, by decide⟩).val :=
  dot_S4000x128_S128x256_S4000x256_1_0_0_1_n_n.lhsIdx_val_of_single rfl i q
theorem dotA_r0 (i q) : (dot_S4000x128_S128x256_S4000x256_1_0_0_1_n_n.rhsIdx i q 0).val = (q ⟨0, by decide⟩).val :=
  dot_S4000x128_S128x256_S4000x256_1_0_0_1_n_n.rhsIdx_val_of_single rfl i q
theorem dotA_r1 (i q) : (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

theorem dotB_l0 (i q) : (dot_S4000x256_S256x100_S4000x100_1_0_0_1_n_n.lhsIdx i q 0).val = (i 0).val := by
  unfold DotDims.lhsIdx
  rw [dif_neg (show ¬(0 : Fin S4000x256.rank) ∈ dot_S4000x256_S256x100_S4000x100_1_0_0_1_n_n.lhsBatch by decide), dif_pos (show (0 : Fin S4000x256.rank) ∈ dot_S4000x256_S256x100_S4000x100_1_0_0_1_n_n.lhsNonContracting by decide)]
  rfl
theorem dotB_l1 (i q) : (dot_S4000x256_S256x100_S4000x100_1_0_0_1_n_n.lhsIdx i q 1).val = (q ⟨0, by decide⟩).val :=
  dot_S4000x256_S256x100_S4000x100_1_0_0_1_n_n.lhsIdx_val_of_single rfl i q
theorem dotB_r0 (i q) : (dot_S4000x256_S256x100_S4000x100_1_0_0_1_n_n.rhsIdx i q 0).val = (q ⟨0, by decide⟩).val :=
  dot_S4000x256_S256x100_S4000x100_1_0_0_1_n_n.rhsIdx_val_of_single rfl i q
theorem dotB_r1 (i q) : (dot_S4000x256_S256x100_S4000x100_1_0_0_1_n_n.rhsIdx i q 1).val = (i 1).val := by
  unfold DotDims.rhsIdx
  rw [dif_neg (show ¬(1 : Fin S256x100.rank) ∈ dot_S4000x256_S256x100_S4000x100_1_0_0_1_n_n.rhsBatch by decide), dif_pos (show (1 : Fin S256x100.rank) ∈ dot_S4000x256_S256x100_S4000x100_1_0_0_1_n_n.rhsNonContracting by decide)]
  rfl

/-- A 4000×128 by 128×256 product into zero, at `(p, j)`. -/
theorem matmulA_apply {φ₁ φ₂ : FTy} (l : FVec Ideal S4000x128 φ₁) (r : FVec Ideal S128x256 φ₂) (p : Fin 4000) (j : Fin 256) :
    matmul dot_S4000x128_S128x256_S4000x256_1_0_0_1_n_n none l r (constant S4000x256 .f32 0x00000000#32) (ix2 p j)
      = ∑ a : Fin 128, l (ix2 p a) * r (ix2 a j) :=
  Cert.LibPlainDot.matmul_zero_plain dot_S4000x128_S128x256_S4000x256_1_0_0_1_n_n rfl rfl dotA_l0 dotA_l1 dotA_r0 dotA_r1 none l r p j

/-- A 4000×256 by 256×100 product into zero, at `(p, c)`. -/
theorem matmulB_apply {φ₁ φ₂ : FTy} (l : FVec Ideal S4000x256 φ₁) (r : FVec Ideal S256x100 φ₂) (p : Fin 4000) (c : Fin 100) :
    matmul dot_S4000x256_S256x100_S4000x100_1_0_0_1_n_n none l r (constant S4000x100 .f32 0x00000000#32) (ix2 p c)
      = ∑ a : Fin 256, l (ix2 p a) * r (ix2 a c) :=
  Cert.LibPlainDot.matmul_zero_plain dot_S4000x256_S256x100_S4000x100_1_0_0_1_n_n rfl rfl dotB_l0 dotB_l1 dotB_r0 dotB_r1 none l r p c

/-! ## Layer 1 -/

/-- The hidden block at `(p, j)`. -/
theorem hidden_apply (v0 : Vec Ideal S4000x128 .f32) (v2 : Vec Ideal S4000x1 .f32) (v7 : Vec Ideal S4000x128 .f32)
    (v9 v12 : Vec Ideal S128x256 .bf16) (v16 : Vec Ideal S1x256 .f32) (p : Fin 4000) (j : Fin 256) :
    k0_pay1 (F := Ideal) v0 v2 v7 v9 v12 v16 (ix2 p j)
      = max (∑ k : Fin 128, (v0 (ix2 p k) * v2 (ix2 p (0 : Fin 1))) * v9 (ix2 k j)
          + ∑ k : Fin 128, v7 (ix2 p k) * v12 (ix2 k j) + v16 (ix2 (0 : Fin 1) j)) 0 := by
  unfold k0_pay1
  simp only [maximumf_apply, addf_apply, matmulA_apply, broadcast_apply, broadcastTo_1b_ab_apply, shapeCast_self, truncf_apply,
    mulf_apply, Cert.LibLayout.broadcastTo_a1_ab_apply, Ideal.ofBits_def, Ideal.ofBits_zero_f32]

/-- The projected block at `(p, c)`: the hidden block's row `p` through the projecting matrix. -/
theorem proj_apply (v0 : Vec Ideal S4000x128 .f32) (v2 : Vec Ideal S4000x1 .f32) (v7 : Vec Ideal S4000x128 .f32)
    (v9 v12 : Vec Ideal S128x256 .bf16) (v16 : Vec Ideal S1x256 .f32) (v24 : Vec Ideal S256x100 .bf16) (p : Fin 4000) (c : Fin 100) :
    k0_pay2 (F := Ideal) v0 v2 v7 v9 v12 v16 v24 (ix2 p c)
      = ∑ j : Fin 256, k0_pay1 (F := Ideal) v0 v2 v7 v9 v12 v16 (ix2 p j) * v24 (ix2 j c) := by
  unfold k0_pay2
  simp only [matmulB_apply, shapeCast_self, truncf_apply]

/-! ## Layer 2 -/

/-- The output block at `(p, c)`. -/
theorem out_apply (v0 : Vec Ideal S4000x100 .f32) (v2 : Vec Ideal S4000x1 .f32) (v6 : Vec Ideal S4000x256 .f32)
    (v9 : Vec Ideal S256x100 .bf16) (v13 : Vec Ideal S1x100 .f32) (p : Fin 4000) (c : Fin 100) :
    k1_pay1 (F := Ideal) v0 v2 v6 v9 v13 (ix2 p c)
      = Ideal.logistic (v0 (ix2 p c) * v2 (ix2 p (0 : Fin 1)) + ∑ j : Fin 256, v6 (ix2 p j) * v9 (ix2 j c) + v13 (ix2 (0 : Fin 1) c)) := by
  unfold k1_pay1
  simp only [logistic, Ideal.logistic_def, addf_apply, matmulB_apply, broadcastTo_1b_ab_apply, shapeCast_self, truncf_apply,
    mulf_apply, Cert.LibLayout.broadcastTo_a1_ab_apply]

end Cert.KernelIdeal.Bodies

end
-- ==== Proof.Region0.lean ====
/-
  Layer 1's pipelined region, read as whole arrays.

  The region runs the layer-1 body once per block of 4000 nodes, 25 blocks. Block `t` of the three row-blocked operands
  (aggregated rows, reciprocal counts, own rows) is rows `4000·t … 4000·t + 3999` of the array; the weight matrices and
  the bias row are fetched whole. Block `t` of each result holds the body's value on those rows, and the 25 blocks tile
  the 100000 rows, so after the region the hidden array is `hidF` and the projected array `projF` of the operand arrays
  as the region found them, entry by entry.
-/
import proofs.«127952_j55009941127683_2_alg».proof.Proof.Gen.KernelIdeal.Frame
import proofs.«127952_j55009941127683_2_alg».proof.Proof.Bodies

set_option maxRecDepth 16384

noncomputable section

open scoped BigOperators

namespace Cert.KernelIdeal.Layer1

open Cert.KernelIdeal Cert.KernelIdeal.Gen Cert.KernelIdeal.Bodies Idealize.ShloMosaic Idealize.ShloMosaic.TcCoe Idealize.ShloMosaic.ValueIdx
open Idealize.ShloMosaic.Pipeline (Dat)

/-! ## The two results as functions of the operand arrays -/

/-- The hidden entry of node `r`, column `j`. -/
def hidF (A : S100000x128.Idx → EReal) (S : S100000x1.Idx → EReal) (X : S100000x128.Idx → EReal)
    (WL WR : S128x256.Idx → EReal) (B : S1x256.Idx → EReal) (r : Fin 100000) (j : Fin 256) : EReal :=
  max (∑ k : Fin 128, (A (ix2 r k) * S (ix2 r (0 : Fin 1))) * WL (ix2 k j) + ∑ k : Fin 128, X (ix2 r k) * WR (ix2 k j)
    + B (ix2 (0 : Fin 1) j)) 0

/-- The projected entry of node `r`, column `c`. -/
def projF (A : S100000x128.Idx → EReal) (S : S100000x1.Idx → EReal) (X : S100000x128.Idx → EReal)
    (WL WR : S128x256.Idx → EReal) (B : S1x256.Idx → EReal) (W2 : S256x100.Idx → EReal) (r : Fin 100000) (c : Fin 100) : EReal :=
  ∑ j : Fin 256, hidF A S X WL WR B r j * W2 (ix2 j c)

/-- A function of (row, column) as an array. -/
def asArray {n0 n1 : ℕ} (f : Fin n0 → Fin n1 → EReal) : (⟨2, ![n0, n1]⟩ : Shape).Idx → EReal :=
  fun i => f ⟨(i 0).val, idx2_lt0 i⟩ ⟨(i 1).val, idx2_lt1 i⟩

theorem asArray_apply {n0 n1 : ℕ} (f : Fin n0 → Fin n1 → EReal) (i : (⟨2, ![n0, n1]⟩ : Shape).Idx) (r : Fin n0) (j : Fin n1)
    (h0 : (i 0).val = r.val) (h1 : (i 1).val = j.val) : asArray f i = f r j := by
  unfold asArray
  congr 1 <;> exact Fin.ext ‹_›

theorem asArray_ix2 {n0 n1 : ℕ} (f : Fin n0 → Fin n1 → EReal) (r : Fin n0) (j : Fin n1) : asArray f (ix2 r j) = f r j := rfl

/-! ## One grid point, over variables -/

theorem hidden_point (A : S100000x128.Idx → EReal) (S : S100000x1.Idx → EReal) (X : S100000x128.Idx → EReal)
    (WL WR : S128x256.Idx → EReal) (B : S1x256.Idx → EReal)
    (x0 : Vec Ideal S4000x128 .f32) (x1 : Vec Ideal S4000x1 .f32) (x2 : Vec Ideal S4000x128 .f32)
    (x3 x4 : Vec Ideal S128x256 .bf16) (x5 : Vec Ideal S1x256 .f32) (p : Fin 4000) (r : Fin 100000)
    (h0 : ∀ k, x0 (ix2 p k) = A (ix2 r k)) (h1 : x1 (ix2 p (0 : Fin 1)) = S (ix2 r (0 : Fin 1)))
    (h2 : ∀ k, x2 (ix2 p k) = X (ix2 r k)) (h3 : ∀ k j, x3 (ix2 k j) = WL (ix2 k j)) (h4 : ∀ k j, x4 (ix2 k j) = WR (ix2 k j))
    (h5 : ∀ j, x5 (ix2 (0 : Fin 1) j) = B (ix2 (0 : Fin 1) j)) (j : Fin 256) :
    k0_pay1 (F := Ideal) x0 x1 x2 x3 x4 x5 (ix2 p j) = hidF A S X WL WR B r j := by
  rw [hidden_apply]
  unfold hidF
  simp only [h0, h1, h2, h3, h4, h5]

theorem proj_point (A : S100000x128.Idx → EReal) (S : S100000x1.Idx → EReal) (X : S100000x128.Idx → EReal)
    (WL WR : S128x256.Idx → EReal) (B : S1x256.Idx → EReal) (W2 : S256x100.Idx → EReal)
    (x0 : Vec Ideal S4000x128 .f32) (x1 : Vec Ideal S4000x1 .f32) (x2 : Vec Ideal S4000x128 .f32)
    (x3 x4 : Vec Ideal S128x256 .bf16) (x5 : Vec Ideal S1x256 .f32) (x6 : Vec Ideal S256x100 .bf16) (p : Fin 4000) (r : Fin 100000)
    (h0 : ∀ k, x0 (ix2 p k) = A (ix2 r k)) (h1 : x1 (ix2 p (0 : Fin 1)) = S (ix2 r (0 : Fin 1)))
    (h2 : ∀ k, x2 (ix2 p k) = X (ix2 r k)) (h3 : ∀ k j, x3 (ix2 k j) = WL (ix2 k j)) (h4 : ∀ k j, x4 (ix2 k j) = WR (ix2 k j))
    (h5 : ∀ j, x5 (ix2 (0 : Fin 1) j) = B (ix2 (0 : Fin 1) j)) (h6 : ∀ j c, x6 (ix2 j c) = W2 (ix2 j c)) (c : Fin 100) :
    k0_pay2 (F := Ideal) x0 x1 x2 x3 x4 x5 x6 (ix2 p c) = projF A S X WL WR B W2 r c := by
  rw [proj_apply]
  unfold projF
  refine Finset.sum_congr rfl fun j _ => ?_
  rw [hidden_point A S X WL WR B x0 x1 x2 x3 x4 x5 p r h0 h1 h2 h3 h4 h5 j, h6]

/-! ## The blocks -/

section Region
variable (V : (c : Dev nD) → (b : Ref sig .tc) → Buf (Elt Ideal) ((c : Thread nD τ).loc b))

theorem hz : (![0, 0] : Fin 2 → Nat) = fun _ => 0 := funext fun a => by fin_cases a <;> rfl

theorem idx_0_0 : ∀ t : Fin cfg0.N, win0_0.index t (0 : Fin 2) = t.val ∧ win0_0.index t (1 : Fin 2) = 0 :=
  (by decide +kernel : ∀ t : Fin grid0.N, _)

theorem idx_0_1 : ∀ t : Fin cfg0.N, win0_1.index t (0 : Fin 2) = t.val ∧ win0_1.index t (1 : Fin 2) = 0 :=
  (by decide +kernel : ∀ t : Fin grid0.N, _)

theorem idx_0_2 : ∀ t : Fin cfg0.N, win0_2.index t (0 : Fin 2) = t.val ∧ win0_2.index t (1 : Fin 2) = 0 :=
  (by decide +kernel : ∀ t : Fin grid0.N, _)

theorem idx_0_7 : ∀ t : Fin cfg0.N, win0_7.index t (0 : Fin 2) = t.val ∧ win0_7.index t (1 : Fin 2) = 0 :=
  (by decide +kernel : ∀ t : Fin grid0.N, _)

theorem idx_0_8 : ∀ t : Fin cfg0.N, win0_8.index t (0 : Fin 2) = t.val ∧ win0_8.index t (1 : Fin 2) = 0 :=
  (by decide +kernel : ∀ t : Fin grid0.N, _)

theorem idx_0_3 : ∀ t : Fin cfg0.N, win0_3.index t (0 : Fin 2) = 0 ∧ win0_3.index t (1 : Fin 2) = 0 :=
  (by decide +kernel : ∀ t : Fin grid0.N, _)

theorem idx_0_4 : ∀ t : Fin cfg0.N, win0_4.index t (0 : Fin 2) = 0 ∧ win0_4.index t (1 : Fin 2) = 0 :=
  (by decide +kernel : ∀ t : Fin grid0.N, _)

theorem idx_0_5 : ∀ t : Fin cfg0.N, win0_5.index t (0 : Fin 2) = 0 ∧ win0_5.index t (1 : Fin 2) = 0 :=
  (by decide +kernel : ∀ t : Fin grid0.N, _)

theorem idx_0_6 : ∀ t : Fin cfg0.N, win0_6.index t (0 : Fin 2) = 0 ∧ win0_6.index t (1 : Fin 2) = 0 :=
  (by decide +kernel : ∀ t : Fin grid0.N, _)

theorem blk0_0 (c : Dev nD) (t : Fin cfg0.N) (p : Fin 4000) (r : Fin 100000) (hr : r.val = t.val * 4000 + p.val) (k : Fin 128) :
    iblk0 V c 0 t (ix2 p k) = V c main_v22 (ix2 r k) := by
  show V c main_v22 (((cfg0.win 0).blk t).view.emb (ix2 p k)) = V c main_v22 (ix2 r k)
  refine congrArg _ (funext fun a => Fin.ext ?_)
  obtain ⟨e0, e1⟩ := idx_0_0 t
  match a with
  | ⟨0, _⟩ => show win0_0.index t (0 : Fin 2) * 4000 + 1 * p.val = r.val; omega
  | ⟨1, _⟩ => show win0_0.index t (1 : Fin 2) * 128 + 1 * k.val = k.val; omega

theorem blk0_1 (c : Dev nD) (t : Fin cfg0.N) (p : Fin 4000) (r : Fin 100000) (hr : r.val = t.val * 4000 + p.val) (k : Fin 1) :
    iblk0 V c 1 t (ix2 p k) = V c main_v12 (ix2 r k) := by
  show V c main_v12 (((cfg0.win 1).blk t).view.emb (ix2 p k)) = V c main_v12 (ix2 r k)
  refine congrArg _ (funext fun a => Fin.ext ?_)
  obtain ⟨e0, e1⟩ := idx_0_1 t
  match a with
  | ⟨0, _⟩ => show win0_1.index t (0 : Fin 2) * 4000 + 1 * p.val = r.val; omega
  | ⟨1, _⟩ => show win0_1.index t (1 : Fin 2) * 1 + 1 * k.val = k.val; omega

theorem blk0_2 (c : Dev nD) (t : Fin cfg0.N) (p : Fin 4000) (r : Fin 100000) (hr : r.val = t.val * 4000 + p.val) (k : Fin 128) :
    iblk0 V c 2 t (ix2 p k) = V c main_arg0 (ix2 r k) := by
  show V c main_arg0 (((cfg0.win 2).blk t).view.emb (ix2 p k)) = V c main_arg0 (ix2 r k)
  refine congrArg _ (funext fun a => Fin.ext ?_)
  obtain ⟨e0, e1⟩ := idx_0_2 t
  match a with
  | ⟨0, _⟩ => show win0_2.index t (0 : Fin 2) * 4000 + 1 * p.val = r.val; omega
  | ⟨1, _⟩ => show win0_2.index t (1 : Fin 2) * 128 + 1 * k.val = k.val; omega

theorem blk0_3 (c : Dev nD) (t : Fin cfg0.N) (p : Fin 128) (k : Fin 256) :
    iblk0 V c 3 t (ix2 p k) = V c main_v23 (ix2 p k) := by
  show V c main_v23 (((cfg0.win 3).blk t).view.emb (ix2 p k)) = V c main_v23 (ix2 p k)
  refine congrArg _ (funext fun a => Fin.ext ?_)
  obtain ⟨e0, e1⟩ := idx_0_3 t
  match a with
  | ⟨0, _⟩ => show win0_3.index t (0 : Fin 2) * 128 + 1 * p.val = p.val; omega
  | ⟨1, _⟩ => show win0_3.index t (1 : Fin 2) * 256 + 1 * k.val = k.val; omega

theorem blk0_4 (c : Dev nD) (t : Fin cfg0.N) (p : Fin 128) (k : Fin 256) :
    iblk0 V c 4 t (ix2 p k) = V c main_v24 (ix2 p k) := by
  show V c main_v24 (((cfg0.win 4).blk t).view.emb (ix2 p k)) = V c main_v24 (ix2 p k)
  refine congrArg _ (funext fun a => Fin.ext ?_)
  obtain ⟨e0, e1⟩ := idx_0_4 t
  match a with
  | ⟨0, _⟩ => show win0_4.index t (0 : Fin 2) * 128 + 1 * p.val = p.val; omega
  | ⟨1, _⟩ => show win0_4.index t (1 : Fin 2) * 256 + 1 * k.val = k.val; omega

theorem blk0_5 (c : Dev nD) (t : Fin cfg0.N) (p : Fin 1) (k : Fin 256) :
    iblk0 V c 5 t (ix2 p k) = V c main_v27 (ix2 p k) := by
  show V c main_v27 (((cfg0.win 5).blk t).view.emb (ix2 p k)) = V c main_v27 (ix2 p k)
  refine congrArg _ (funext fun a => Fin.ext ?_)
  obtain ⟨e0, e1⟩ := idx_0_5 t
  match a with
  | ⟨0, _⟩ => show win0_5.index t (0 : Fin 2) * 1 + 1 * p.val = p.val; omega
  | ⟨1, _⟩ => show win0_5.index t (1 : Fin 2) * 256 + 1 * k.val = k.val; omega

theorem blk0_6 (c : Dev nD) (t : Fin cfg0.N) (p : Fin 256) (k : Fin 100) :
    iblk0 V c 6 t (ix2 p k) = V c main_v25 (ix2 p k) := by
  show V c main_v25 (((cfg0.win 6).blk t).view.emb (ix2 p k)) = V c main_v25 (ix2 p k)
  refine congrArg _ (funext fun a => Fin.ext ?_)
  obtain ⟨e0, e1⟩ := idx_0_6 t
  match a with
  | ⟨0, _⟩ => show win0_6.index t (0 : Fin 2) * 256 + 1 * p.val = p.val; omega
  | ⟨1, _⟩ => show win0_6.index t (1 : Fin 2) * 100 + 1 * k.val = k.val; omega

/-! ## What a point writes back, and the whole arrays -/

/-- Point `t` writes back block `t` of the hidden array. -/
theorem flushed7_eq (c : Dev nD) (t : Fin cfg0.N) :
    (dat0 V c).flushed 7 t = ((cfg0.win 7).blk t).view.read (Elt Ideal)
      (asArray (hidF (V c main_v22) (V c main_v12) (V c main_arg0) (V c main_v23) (V c main_v24) (V c main_v27))) := by
  show (cfg0.win 7).cut (grid0.coords t) ((dat0 V c).after 7 t) = _
  rw [after0_7]
  unfold out0_7
  rw [View.canon_unit_zero hz]
  simp only [View.ld_unit_zero (S := S4000x128) hz, View.ld_unit_zero (S := S4000x1) hz, View.ld_unit_zero (S := S128x256) hz,
    View.ld_unit_zero (S := S1x256) hz]
  funext y
  obtain ⟨p, j, rfl⟩ : ∃ (p : Fin 4000) (j : Fin 256), y = ix2 p j := ⟨y 0, y 1, eq_ix2 y⟩
  obtain ⟨e0, e1⟩ := idx_0_7 t
  have ht : t.val < 25 := t.isLt
  have hE0 : ((((cfg0.win 7).blk t).view.emb (ix2 p j)) 0).val = t.val * 4000 + p.val := by
    show win0_7.index t (0 : Fin 2) * 4000 + 1 * p.val = _; omega
  have hE1 : ((((cfg0.win 7).blk t).view.emb (ix2 p j)) 1).val = j.val := by
    show win0_7.index t (1 : Fin 2) * 256 + 1 * j.val = _; omega
  show k0_pay1 (F := Ideal) (iblk0 V c 0 t) (iblk0 V c 1 t) (iblk0 V c 2 t) (iblk0 V c 3 t) (iblk0 V c 4 t) (iblk0 V c 5 t) (ix2 p j)
    = asArray (hidF (V c main_v22) (V c main_v12) (V c main_arg0) (V c main_v23) (V c main_v24) (V c main_v27))
        (((cfg0.win 7).blk t).view.emb (ix2 p j))
  rw [asArray_apply _ _ (⟨t.val * 4000 + p.val, by omega⟩ : Fin 100000) j hE0 hE1]
  exact hidden_point (V c main_v22) (V c main_v12) (V c main_arg0) (V c main_v23) (V c main_v24) (V c main_v27)
    (iblk0 V c 0 t) (iblk0 V c 1 t) (iblk0 V c 2 t) (iblk0 V c 3 t) (iblk0 V c 4 t) (iblk0 V c 5 t) p ⟨t.val * 4000 + p.val, by omega⟩
    (fun k => blk0_0 V c t p _ rfl k) (blk0_1 V c t p _ rfl 0) (fun k => blk0_2 V c t p _ rfl k)
    (fun k j => blk0_3 V c t k j) (fun k j => blk0_4 V c t k j) (fun j => blk0_5 V c t 0 j) j

/-- Point `t` writes back block `t` of the projected array. -/
theorem flushed8_eq (c : Dev nD) (t : Fin cfg0.N) :
    (dat0 V c).flushed 8 t = ((cfg0.win 8).blk t).view.read (Elt Ideal)
      (asArray (projF (V c main_v22) (V c main_v12) (V c main_arg0) (V c main_v23) (V c main_v24) (V c main_v27) (V c main_v25))) := by
  show (cfg0.win 8).cut (grid0.coords t) ((dat0 V c).after 8 t) = _
  rw [after0_8]
  unfold out0_8
  rw [View.canon_unit_zero hz]
  simp only [View.ld_unit_zero (S := S4000x128) hz, View.ld_unit_zero (S := S4000x1) hz, View.ld_unit_zero (S := S128x256) hz,
    View.ld_unit_zero (S := S1x256) hz, View.ld_unit_zero (S := S256x100) hz]
  funext y
  obtain ⟨p, j, rfl⟩ : ∃ (p : Fin 4000) (j : Fin 100), y = ix2 p j := ⟨y 0, y 1, eq_ix2 y⟩
  obtain ⟨e0, e1⟩ := idx_0_8 t
  have ht : t.val < 25 := t.isLt
  have hE0 : ((((cfg0.win 8).blk t).view.emb (ix2 p j)) 0).val = t.val * 4000 + p.val := by
    show win0_8.index t (0 : Fin 2) * 4000 + 1 * p.val = _; omega
  have hE1 : ((((cfg0.win 8).blk t).view.emb (ix2 p j)) 1).val = j.val := by
    show win0_8.index t (1 : Fin 2) * 100 + 1 * j.val = _; omega
  show k0_pay2 (F := Ideal) (iblk0 V c 0 t) (iblk0 V c 1 t) (iblk0 V c 2 t) (iblk0 V c 3 t) (iblk0 V c 4 t) (iblk0 V c 5 t) (iblk0 V c 6 t) (ix2 p j)
    = asArray (projF (V c main_v22) (V c main_v12) (V c main_arg0) (V c main_v23) (V c main_v24) (V c main_v27) (V c main_v25))
        (((cfg0.win 8).blk t).view.emb (ix2 p j))
  rw [asArray_apply _ _ (⟨t.val * 4000 + p.val, by omega⟩ : Fin 100000) j hE0 hE1]
  exact proj_point (V c main_v22) (V c main_v12) (V c main_arg0) (V c main_v23) (V c main_v24) (V c main_v27) (V c main_v25)
    (iblk0 V c 0 t) (iblk0 V c 1 t) (iblk0 V c 2 t) (iblk0 V c 3 t) (iblk0 V c 4 t) (iblk0 V c 5 t) (iblk0 V c 6 t) p ⟨t.val * 4000 + p.val, by omega⟩
    (fun k => blk0_0 V c t p _ rfl k) (blk0_1 V c t p _ rfl 0) (fun k => blk0_2 V c t p _ rfl k)
    (fun k j => blk0_3 V c t k j) (fun k j => blk0_4 V c t k j) (fun j => blk0_5 V c t 0 j) (fun j c' => blk0_6 V c t j c') j

/-- The grid point whose block holds a given row. -/
theorem point_of_row (r : ℕ) (hr : r < 100000) : r / 4000 < grid0.N := by
  rw [N_0]; omega

theorem mem_blk7 (t : Fin cfg0.N) (i : S100000x256.Idx) :
    i ∈ ((cfg0.win 7).blk t).view.set ↔ ∀ a : Fin 2, win0_7.index t a * S4000x256.size a ≤ (i a).val ∧ (i a).val < win0_7.index t a * S4000x256.size a + S4000x256.size a := by
  show i ∈ ((View.whole main_v29_0).slice (win0_7.rect t)).set ↔ _
  rw [View.set_slice_whole, Rect.mem_set_unit]
  exact Iff.rfl

theorem mem_blk8 (t : Fin cfg0.N) (i : S100000x100.Idx) :
    i ∈ ((cfg0.win 8).blk t).view.set ↔ ∀ a : Fin 2, win0_8.index t a * S4000x100.size a ≤ (i a).val ∧ (i a).val < win0_8.index t a * S4000x100.size a + S4000x100.size a := by
  show i ∈ ((View.whole main_v29_1).slice (win0_8.rect t)).set ↔ _
  rw [View.set_slice_whole, Rect.mem_set_unit]
  exact Iff.rfl

theorem cover7 (i : S100000x256.Idx) : ∃ t : Fin cfg0.N, (cfg0.win 7).flush t = true ∧ i ∈ ((cfg0.win 7).blk t).view.set := by
  have hi0 : (i 0).val < 100000 := (i 0).isLt
  have hi1 : (i 1).val < 256 := (i 1).isLt
  refine ⟨⟨(i 0).val / 4000, point_of_row _ hi0⟩, flush0_7 _, ?_⟩
  rw [mem_blk7]
  obtain ⟨e0, e1⟩ := idx_0_7 ⟨(i 0).val / 4000, point_of_row _ hi0⟩
  intro a
  match a with
  | ⟨0, _⟩ => show win0_7.index _ (0 : Fin 2) * 4000 ≤ (i 0).val ∧ (i 0).val < win0_7.index _ (0 : Fin 2) * 4000 + 4000; rw [e0]; show (i 0).val / 4000 * 4000 ≤ _ ∧ _ < (i 0).val / 4000 * 4000 + 4000; omega
  | ⟨1, _⟩ => show win0_7.index _ (1 : Fin 2) * 256 ≤ (i 1).val ∧ (i 1).val < win0_7.index _ (1 : Fin 2) * 256 + 256; rw [e1]; omega

theorem cover8 (i : S100000x100.Idx) : ∃ t : Fin cfg0.N, (cfg0.win 8).flush t = true ∧ i ∈ ((cfg0.win 8).blk t).view.set := by
  have hi0 : (i 0).val < 100000 := (i 0).isLt
  have hi1 : (i 1).val < 100 := (i 1).isLt
  refine ⟨⟨(i 0).val / 4000, point_of_row _ hi0⟩, flush0_8 _, ?_⟩
  rw [mem_blk8]
  obtain ⟨e0, e1⟩ := idx_0_8 ⟨(i 0).val / 4000, point_of_row _ hi0⟩
  intro a
  match a with
  | ⟨0, _⟩ => show win0_8.index _ (0 : Fin 2) * 4000 ≤ (i 0).val ∧ (i 0).val < win0_8.index _ (0 : Fin 2) * 4000 + 4000; rw [e0]; show (i 0).val / 4000 * 4000 ≤ _ ∧ _ < (i 0).val / 4000 * 4000 + 4000; omega
  | ⟨1, _⟩ => show win0_8.index _ (1 : Fin 2) * 100 ≤ (i 1).val ∧ (i 1).val < win0_8.index _ (1 : Fin 2) * 100 + 100; rw [e1]; omega

/-- THE HIDDEN ARRAY after the region. -/
theorem hidden_final (c : Dev nD) : (dat0 V c).arrAt 7 cfg0.N
    = asArray (hidF (V c main_v22) (V c main_v12) (V c main_arg0) (V c main_v23) (V c main_v24) (V c main_v27)) :=
  (dat0 V c).arrAt_eq_of_cover 7 _ (fun t _ => flushed7_eq V c t) cover7

/-- THE PROJECTED ARRAY after the region. -/
theorem proj_final (c : Dev nD) : (dat0 V c).arrAt 8 cfg0.N
    = asArray (projF (V c main_v22) (V c main_v12) (V c main_arg0) (V c main_v23) (V c main_v24) (V c main_v27) (V c main_v25)) :=
  (dat0 V c).arrAt_eq_of_cover 8 _ (fun t _ => flushed8_eq V c t) cover8

end Region

end Cert.KernelIdeal.Layer1

end
-- ==== Proof.Region1.lean ====
/-
  Layer 2's pipelined region, read as a whole array.

  The region runs the layer-2 body once per block of 4000 nodes, 25 blocks. Block `t` of the three row-blocked operands
  (aggregated projected rows, reciprocal counts, hidden rows) is rows `4000·t … 4000·t + 3999` of the array; the weight
  matrix and the bias row are fetched whole. The 25 result blocks tile the 100000 rows, so after the region the result
  array is `outF` of the operand arrays as the region found them, entry by entry.
-/
import proofs.«127952_j55009941127683_2_alg».proof.Proof.Gen.KernelIdeal.Frame
import proofs.«127952_j55009941127683_2_alg».proof.Proof.Bodies
import proofs.«127952_j55009941127683_2_alg».proof.Proof.Region0

set_option maxRecDepth 16384

noncomputable section

open scoped BigOperators

namespace Cert.KernelIdeal.Layer2

open Cert.KernelIdeal Cert.KernelIdeal.Gen Cert.KernelIdeal.Bodies Idealize.ShloMosaic Idealize.ShloMosaic.TcCoe Idealize.ShloMosaic.ValueIdx
open Idealize.ShloMosaic.Pipeline (Dat)
open Cert.KernelIdeal.Layer1 (asArray asArray_apply hz)

/-- The result entry of node `r`, class `c`. -/
def outF (G : S100000x100.Idx → EReal) (S : S100000x1.Idx → EReal) (H : S100000x256.Idx → EReal)
    (W : S256x100.Idx → EReal) (B : S1x100.Idx → EReal) (r : Fin 100000) (c : Fin 100) : EReal :=
  Ideal.logistic (G (ix2 r c) * S (ix2 r (0 : Fin 1)) + ∑ j : Fin 256, H (ix2 r j) * W (ix2 j c) + B (ix2 (0 : Fin 1) c))

theorem out_point (G : S100000x100.Idx → EReal) (S : S100000x1.Idx → EReal) (H : S100000x256.Idx → EReal)
    (W : S256x100.Idx → EReal) (B : S1x100.Idx → EReal)
    (x0 : Vec Ideal S4000x100 .f32) (x1 : Vec Ideal S4000x1 .f32) (x2 : Vec Ideal S4000x256 .f32)
    (x3 : Vec Ideal S256x100 .bf16) (x4 : Vec Ideal S1x100 .f32) (p : Fin 4000) (r : Fin 100000)
    (h0 : ∀ c, x0 (ix2 p c) = G (ix2 r c)) (h1 : x1 (ix2 p (0 : Fin 1)) = S (ix2 r (0 : Fin 1)))
    (h2 : ∀ j, x2 (ix2 p j) = H (ix2 r j)) (h3 : ∀ j c, x3 (ix2 j c) = W (ix2 j c))
    (h4 : ∀ c, x4 (ix2 (0 : Fin 1) c) = B (ix2 (0 : Fin 1) c)) (c : Fin 100) :
    k1_pay1 (F := Ideal) x0 x1 x2 x3 x4 (ix2 p c) = outF G S H W B r c := by
  rw [out_apply]
  unfold outF
  simp only [h0, h1, h2, h3, h4]

section Region
variable (V : (c : Dev nD) → (b : Ref sig .tc) → Buf (Elt Ideal) ((c : Thread nD τ).loc b))

theorem idx_1_0 : ∀ t : Fin cfg1.N, win1_0.index t (0 : Fin 2) = t.val ∧ win1_0.index t (1 : Fin 2) = 0 :=
  (by decide +kernel : ∀ t : Fin grid1.N, _)

theorem idx_1_1 : ∀ t : Fin cfg1.N, win1_1.index t (0 : Fin 2) = t.val ∧ win1_1.index t (1 : Fin 2) = 0 :=
  (by decide +kernel : ∀ t : Fin grid1.N, _)

theorem idx_1_2 : ∀ t : Fin cfg1.N, win1_2.index t (0 : Fin 2) = t.val ∧ win1_2.index t (1 : Fin 2) = 0 :=
  (by decide +kernel : ∀ t : Fin grid1.N, _)

theorem idx_1_5 : ∀ t : Fin cfg1.N, win1_5.index t (0 : Fin 2) = t.val ∧ win1_5.index t (1 : Fin 2) = 0 :=
  (by decide +kernel : ∀ t : Fin grid1.N, _)

theorem idx_1_3 : ∀ t : Fin cfg1.N, win1_3.index t (0 : Fin 2) = 0 ∧ win1_3.index t (1 : Fin 2) = 0 :=
  (by decide +kernel : ∀ t : Fin grid1.N, _)

theorem idx_1_4 : ∀ t : Fin cfg1.N, win1_4.index t (0 : Fin 2) = 0 ∧ win1_4.index t (1 : Fin 2) = 0 :=
  (by decide +kernel : ∀ t : Fin grid1.N, _)

theorem blk1_0 (c : Dev nD) (t : Fin cfg1.N) (p : Fin 4000) (r : Fin 100000) (hr : r.val = t.val * 4000 + p.val) (k : Fin 100) :
    iblk1 V c 0 t (ix2 p k) = V c main_v39 (ix2 r k) := by
  show V c main_v39 (((cfg1.win 0).blk t).view.emb (ix2 p k)) = V c main_v39 (ix2 r k)
  refine congrArg _ (funext fun a => Fin.ext ?_)
  obtain ⟨e0, e1⟩ := idx_1_0 t
  match a with
  | ⟨0, _⟩ => show win1_0.index t (0 : Fin 2) * 4000 + 1 * p.val = r.val; omega
  | ⟨1, _⟩ => show win1_0.index t (1 : Fin 2) * 100 + 1 * k.val = k.val; omega

theorem blk1_1 (c : Dev nD) (t : Fin cfg1.N) (p : Fin 4000) (r : Fin 100000) (hr : r.val = t.val * 4000 + p.val) (k : Fin 1) :
    iblk1 V c 1 t (ix2 p k) = V c main_v12 (ix2 r k) := by
  show V c main_v12 (((cfg1.win 1).blk t).view.emb (ix2 p k)) = V c main_v12 (ix2 r k)
  refine congrArg _ (funext fun a => Fin.ext ?_)
  obtain ⟨e0, e1⟩ := idx_1_1 t
  match a with
  | ⟨0, _⟩ => show win1_1.index t (0 : Fin 2) * 4000 + 1 * p.val = r.val; omega
  | ⟨1, _⟩ => show win1_1.index t (1 : Fin 2) * 1 + 1 * k.val = k.val; omega

theorem blk1_2 (c : Dev nD) (t : Fin cfg1.N) (p : Fin 4000) (r : Fin 100000) (hr : r.val = t.val * 4000 + p.val) (k : Fin 256) :
    iblk1 V c 2 t (ix2 p k) = V c main_v29_0 (ix2 r k) := by
  show V c main_v29_0 (((cfg1.win 2).blk t).view.emb (ix2 p k)) = V c main_v29_0 (ix2 r k)
  refine congrArg _ (funext fun a => Fin.ext ?_)
  obtain ⟨e0, e1⟩ := idx_1_2 t
  match a with
  | ⟨0, _⟩ => show win1_2.index t (0 : Fin 2) * 4000 + 1 * p.val = r.val; omega
  | ⟨1, _⟩ => show win1_2.index t (1 : Fin 2) * 256 + 1 * k.val = k.val; omega

theorem blk1_3 (c : Dev nD) (t : Fin cfg1.N) (p : Fin 256) (k : Fin 100) :
    iblk1 V c 3 t (ix2 p k) = V c main_v26 (ix2 p k) := by
  show V c main_v26 (((cfg1.win 3).blk t).view.emb (ix2 p k)) = V c main_v26 (ix2 p k)
  refine congrArg _ (funext fun a => Fin.ext ?_)
  obtain ⟨e0, e1⟩ := idx_1_3 t
  match a with
  | ⟨0, _⟩ => show win1_3.index t (0 : Fin 2) * 256 + 1 * p.val = p.val; omega
  | ⟨1, _⟩ => show win1_3.index t (1 : Fin 2) * 100 + 1 * k.val = k.val; omega

theorem blk1_4 (c : Dev nD) (t : Fin cfg1.N) (p : Fin 1) (k : Fin 100) :
    iblk1 V c 4 t (ix2 p k) = V c main_v28 (ix2 p k) := by
  show V c main_v28 (((cfg1.win 4).blk t).view.emb (ix2 p k)) = V c main_v28 (ix2 p k)
  refine congrArg _ (funext fun a => Fin.ext ?_)
  obtain ⟨e0, e1⟩ := idx_1_4 t
  match a with
  | ⟨0, _⟩ => show win1_4.index t (0 : Fin 2) * 1 + 1 * p.val = p.val; omega
  | ⟨1, _⟩ => show win1_4.index t (1 : Fin 2) * 100 + 1 * k.val = k.val; omega

/-- Point `t` writes back block `t` of the result array. -/
theorem flushed5_eq (c : Dev nD) (t : Fin cfg1.N) :
    (dat1 V c).flushed 5 t = ((cfg1.win 5).blk t).view.read (Elt Ideal)
      (asArray (outF (V c main_v39) (V c main_v12) (V c main_v29_0) (V c main_v26) (V c main_v28))) := by
  show (cfg1.win 5).cut (grid1.coords t) ((dat1 V c).after 5 t) = _
  rw [after1_5]
  unfold out1_5
  rw [View.canon_unit_zero hz]
  simp only [View.ld_unit_zero (S := S4000x100) hz, View.ld_unit_zero (S := S4000x1) hz, View.ld_unit_zero (S := S4000x256) hz,
    View.ld_unit_zero (S := S256x100) hz, View.ld_unit_zero (S := S1x100) hz]
  funext y
  obtain ⟨p, j, rfl⟩ : ∃ (p : Fin 4000) (j : Fin 100), y = ix2 p j := ⟨y 0, y 1, eq_ix2 y⟩
  obtain ⟨e0, e1⟩ := idx_1_5 t
  have ht : t.val < 25 := t.isLt
  have hE0 : ((((cfg1.win 5).blk t).view.emb (ix2 p j)) 0).val = t.val * 4000 + p.val := by
    show win1_5.index t (0 : Fin 2) * 4000 + 1 * p.val = _; omega
  have hE1 : ((((cfg1.win 5).blk t).view.emb (ix2 p j)) 1).val = j.val := by
    show win1_5.index t (1 : Fin 2) * 100 + 1 * j.val = _; omega
  show k1_pay1 (F := Ideal) (iblk1 V c 0 t) (iblk1 V c 1 t) (iblk1 V c 2 t) (iblk1 V c 3 t) (iblk1 V c 4 t) (ix2 p j)
    = asArray (outF (V c main_v39) (V c main_v12) (V c main_v29_0) (V c main_v26) (V c main_v28))
        (((cfg1.win 5).blk t).view.emb (ix2 p j))
  rw [asArray_apply _ _ (⟨t.val * 4000 + p.val, by omega⟩ : Fin 100000) j hE0 hE1]
  exact out_point (V c main_v39) (V c main_v12) (V c main_v29_0) (V c main_v26) (V c main_v28)
    (iblk1 V c 0 t) (iblk1 V c 1 t) (iblk1 V c 2 t) (iblk1 V c 3 t) (iblk1 V c 4 t) p ⟨t.val * 4000 + p.val, by omega⟩
    (fun k => blk1_0 V c t p _ rfl k) (blk1_1 V c t p _ rfl 0) (fun k => blk1_2 V c t p _ rfl k)
    (fun k j => blk1_3 V c t k j) (fun j => blk1_4 V c t 0 j) j

theorem point_of_row (r : ℕ) (hr : r < 100000) : r / 4000 < grid1.N := by
  rw [N_1]; omega

theorem mem_blk5 (t : Fin cfg1.N) (i : S100000x100.Idx) :
    i ∈ ((cfg1.win 5).blk t).view.set ↔ ∀ a : Fin 2, win1_5.index t a * S4000x100.size a ≤ (i a).val ∧ (i a).val < win1_5.index t a * S4000x100.size a + S4000x100.size a := by
  show i ∈ ((View.whole main_v40).slice (win1_5.rect t)).set ↔ _
  rw [View.set_slice_whole, Rect.mem_set_unit]
  exact Iff.rfl

theorem cover5 (i : S100000x100.Idx) : ∃ t : Fin cfg1.N, (cfg1.win 5).flush t = true ∧ i ∈ ((cfg1.win 5).blk t).view.set := by
  have hi0 : (i 0).val < 100000 := (i 0).isLt
  have hi1 : (i 1).val < 100 := (i 1).isLt
  refine ⟨⟨(i 0).val / 4000, point_of_row _ hi0⟩, flush1_5 _, ?_⟩
  rw [mem_blk5]
  obtain ⟨e0, e1⟩ := idx_1_5 ⟨(i 0).val / 4000, point_of_row _ hi0⟩
  intro a
  match a with
  | ⟨0, _⟩ => show win1_5.index _ (0 : Fin 2) * 4000 ≤ (i 0).val ∧ (i 0).val < win1_5.index _ (0 : Fin 2) * 4000 + 4000; rw [e0]; show (i 0).val / 4000 * 4000 ≤ _ ∧ _ < (i 0).val / 4000 * 4000 + 4000; omega
  | ⟨1, _⟩ => show win1_5.index _ (1 : Fin 2) * 100 ≤ (i 1).val ∧ (i 1).val < win1_5.index _ (1 : Fin 2) * 100 + 100; rw [e1]; omega

/-- THE RESULT ARRAY after the region. -/
theorem out_final (c : Dev nD) : (dat1 V c).arrAt 5 cfg1.N
    = asArray (outF (V c main_v39) (V c main_v12) (V c main_v29_0) (V c main_v26) (V c main_v28)) :=
  (dat1 V c).arrAt_eq_of_cover 5 _ (fun t _ => flushed5_eq V c t) cover5

end Region

end Cert.KernelIdeal.Layer2

end
-- ==== Proof.HostK.lean ====
/-
  The host operations of the idealized kernel's program, read as terms of the argument arrays.

  Before the first region the host computes, from the edge list, the two index columns (destinations as they are, sources
  with a negative number wrapped around once), the per-node count (the number of edges landing on the node, at least one)
  and its reciprocal as a column, and the neighbour sum of the node features: the source rows gathered and added into the
  destination rows. Between the regions it computes the neighbour sum of the projected rows the same way.
-/
import proofs.«127952_j55009941127683_2_alg».proof.Proof.Gen.KernelIdeal.Frame
import Idealize.ShloMosaic.Lib.StableHlo.Run
import Idealize.ShloMosaic.PureOps.Ideal
import Idealize.ShloMosaic.PureOps.Ideal.Laws
import Idealize.ShloMosaic.Lib.ValueIdx

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo

/-- Integer and float arrays of a shape, as the program's buffers hold them in exact arithmetic. -/
abbrev CI (s : Shape) := (⟨s, .i32⟩ : BufTy).Contents (Elt Ideal)
abbrev CF (s : Shape) := (⟨s, .f32⟩ : BufTy).Contents (Elt Ideal)

/-- Row 0 of the edge list: the source node numbers. -/
def srcVec (a1 : CI S2x640000) : CI S640000 :=
  shapeCast S640000 (extractStridedSlice S1x640000 ![0, 0] a1 slices_S2x640000_S1x640000_0_0) shapeCasts_S1x640000_S640000
/-- Row 1 of the edge list: the destination node numbers. -/
def dstVec (a1 : CI S2x640000) : CI S640000 :=
  shapeCast S640000 (extractStridedSlice S1x640000 ![1, 0] a1 slices_S2x640000_S1x640000_1_0) shapeCasts_S1x640000_S640000
/-- Destination numbers as a column of scatter indices. -/
def dstIv (dv : CI S640000) : CI S640000x1 := broadcastInDim S640000x1 ![0] bcast_S640000_S640000x1_0 dv
/-- Source numbers, a negative one increased by the node count, as a column of gather indices. -/
def srcIv (sv : CI S640000) : CI S640000x1 :=
  broadcastInDim S640000x1 ![0] bcast_S640000_S640000x1_0
    (select (cmpi .slt sv (broadcastInDim S640000 ![] bcast_S_S640000 (constantI S_ 32 0#32)))
      (addi sv (broadcastInDim S640000 ![] bcast_S_S640000 (constantI S_ 32 100000#32))) sv)
/-- The edge list's destination column. -/
def dstI (a1 : CI S2x640000) : CI S640000x1 := dstIv (dstVec a1)
/-- The edge list's source column. -/
def srcI (a1 : CI S2x640000) : CI S640000x1 := srcIv (srcVec a1)
/-- The per-node count: the number of edges landing on the node, or one if there is none. -/
def cnt (a1 : CI S2x640000) : CF S100000 :=
  maximumf (F := Ideal) (Host.scatterAdd (F := Ideal) scatter_S100000_S640000x1_S640000_n_0_0_1
      (broadcastInDim S100000 ![] bcast_S_S100000 (constant (F := Ideal) S_ .f32 0x00000000#32)) (dstI a1)
      (broadcastInDim S640000 ![] bcast_S_S640000 (constant (F := Ideal) S_ .f32 0x3F800000#32)))
    (broadcastInDim S100000 ![] bcast_S_S100000 (constant (F := Ideal) S_ .f32 0x3F800000#32))
/-- The reciprocal counts as a column. -/
def invCol (a1 : CI S2x640000) : CF S100000x1 :=
  shapeCast S100000x1 (Host.divf (F := Ideal) (broadcastInDim S100000 ![] bcast_S_S100000 (constant (F := Ideal) S_ .f32 0x3F800000#32)) (cnt a1))
    shapeCasts_S100000_S100000x1
/-- The neighbour sum of a 128-column table. -/
def agg128 (a0 : CF S100000x128) (a1 : CI S2x640000) : CF S100000x128 :=
  Host.scatterAdd (F := Ideal) scatter_S100000x128_S640000x1_S640000x128_1_0_0_1
    (broadcastInDim S100000x128 ![] bcast_S_S100000x128 (constant (F := Ideal) S_ .f32 0x00000000#32)) (dstI a1)
    (Host.gather gather_S100000x128_S640000x1_S640000x128_1_0_n_n_0_1_1128 a0 (srcI a1))
/-- The neighbour sum of a 100-column table, from the source and destination numbers. -/
def agg100v (q : CF S100000x100) (sv dv : CI S640000) : CF S100000x100 :=
  Host.scatterAdd (F := Ideal) scatter_S100000x100_S640000x1_S640000x100_1_0_0_1
    (broadcastInDim S100000x100 ![] bcast_S_S100000x100 (constant (F := Ideal) S_ .f32 0x00000000#32)) (dstIv dv)
    (Host.gather gather_S100000x100_S640000x1_S640000x100_1_0_n_n_0_1_1100 q (srcIv sv))
/-- The neighbour sum of a 100-column table. -/
def agg100 (q : CF S100000x100) (a1 : CI S2x640000) : CF S100000x100 := agg100v q (srcVec a1) (dstVec a1)

set_option maxHeartbeats 4000000

variable (m : (ℓ : Loc nD τ sig) → Buf (Elt Ideal) ℓ) (ρ : Dev nD → PrngReg)

/-! ## The first region's operands -/

theorem V1_agg (c : Dev nD) : V1 m ρ c main_v22
    = agg128 (m ((c : Thread nD τ).loc main_arg0)) (m ((c : Thread nD τ).loc main_arg1)) := by
  show StableHlo.after hostOps0 (W0 m ρ c) (Proc.devRef .tc main_v22) = _
  after_results_simp <;> rfl

theorem V1_inv (c : Dev nD) : V1 m ρ c main_v12 = invCol (m ((c : Thread nD τ).loc main_arg1)) := by
  show StableHlo.after hostOps0 (W0 m ρ c) (Proc.devRef .tc main_v12) = _
  after_results_simp <;> rfl

theorem V1_x (c : Dev nD) : V1 m ρ c main_arg0 = m ((c : Thread nD τ).loc main_arg0) := by
  show StableHlo.after hostOps0 (W0 m ρ c) (Proc.devRef .tc main_arg0) = _
  after_results_simp <;> rfl

theorem V1_wl (c : Dev nD) : V1 m ρ c main_v23 = truncf (F := Ideal) .bf16 (m ((c : Thread nD τ).loc main_arg2)) bitsLt_bf16_f32 := by
  show StableHlo.after hostOps0 (W0 m ρ c) (Proc.devRef .tc main_v23) = _
  after_results_simp <;> rfl

theorem V1_wr (c : Dev nD) : V1 m ρ c main_v24 = truncf (F := Ideal) .bf16 (m ((c : Thread nD τ).loc main_arg3)) bitsLt_bf16_f32 := by
  show StableHlo.after hostOps0 (W0 m ρ c) (Proc.devRef .tc main_v24) = _
  after_results_simp <;> rfl

theorem V1_w2l (c : Dev nD) : V1 m ρ c main_v25 = truncf (F := Ideal) .bf16 (m ((c : Thread nD τ).loc main_arg5)) bitsLt_bf16_f32 := by
  show StableHlo.after hostOps0 (W0 m ρ c) (Proc.devRef .tc main_v25) = _
  after_results_simp <;> rfl

theorem V1_b1 (c : Dev nD) : V1 m ρ c main_v27 = shapeCast S1x256 (m ((c : Thread nD τ).loc main_arg4)) shapeCasts_S256_S1x256 := by
  show StableHlo.after hostOps0 (W0 m ρ c) (Proc.devRef .tc main_v27) = _
  after_results_simp <;> rfl

/-! ## The second region's operands -/

theorem W1_src (c : Dev nD) : W1 m ρ c (Proc.devRef .tc main_v1) = srcVec (m ((c : Thread nD τ).loc main_arg1)) := by
  show StableHlo.after hostOps0 (W0 m ρ c) (Proc.devRef .tc main_v1) = _
  after_results_simp <;> rfl

theorem W1_dst (c : Dev nD) : W1 m ρ c (Proc.devRef .tc main_v3) = dstVec (m ((c : Thread nD τ).loc main_arg1)) := by
  show StableHlo.after hostOps0 (W0 m ρ c) (Proc.devRef .tc main_v3) = _
  after_results_simp <;> rfl

theorem W1_w2r (c : Dev nD) : W1 m ρ c (Proc.devRef .tc main_v26) = truncf (F := Ideal) .bf16 (m ((c : Thread nD τ).loc main_arg6)) bitsLt_bf16_f32 := by
  show StableHlo.after hostOps0 (W0 m ρ c) (Proc.devRef .tc main_v26) = _
  after_results_simp <;> rfl

theorem W1_b2 (c : Dev nD) : W1 m ρ c (Proc.devRef .tc main_v28) = shapeCast S1x100 (m ((c : Thread nD τ).loc main_arg7)) shapeCasts_S100_S1x100 := by
  show StableHlo.after hostOps0 (W0 m ρ c) (Proc.devRef .tc main_v28) = _
  after_results_simp <;> rfl

theorem V3_aggp (c : Dev nD) : V3 m ρ c main_v39
    = agg100v (W2 m ρ c (Proc.devRef .tc main_v29_1)) (W2 m ρ c (Proc.devRef .tc main_v1)) (W2 m ρ c (Proc.devRef .tc main_v3)) := by
  show StableHlo.after hostOps1 (W2 m ρ c) (Proc.devRef .tc main_v39) = _
  after_results_simp <;> rfl

theorem V3_inv (c : Dev nD) : V3 m ρ c main_v12 = W2 m ρ c (Proc.devRef .tc main_v12) := by
  show StableHlo.after hostOps1 (W2 m ρ c) (Proc.devRef .tc main_v12) = _
  after_results_simp <;> rfl

theorem V3_hid (c : Dev nD) : V3 m ρ c main_v29_0 = W2 m ρ c (Proc.devRef .tc main_v29_0) := by
  show StableHlo.after hostOps1 (W2 m ρ c) (Proc.devRef .tc main_v29_0) = _
  after_results_simp <;> rfl

theorem V3_w2r (c : Dev nD) : V3 m ρ c main_v26 = W2 m ρ c (Proc.devRef .tc main_v26) := by
  show StableHlo.after hostOps1 (W2 m ρ c) (Proc.devRef .tc main_v26) = _
  after_results_simp <;> rfl

theorem V3_b2 (c : Dev nD) : V3 m ρ c main_v28 = W2 m ρ c (Proc.devRef .tc main_v28) := by
  show StableHlo.after hostOps1 (W2 m ρ c) (Proc.devRef .tc main_v28) = _
  after_results_simp <;> rfl

end Cert.KernelIdeal.HostSide

end
-- ==== Proof.LibRowAggregate.lean ====
/-
  Rows gathered by one index vector and summed into rows named by another, read at an entry.

  Take a table `x : [N, W]` and a vector of `E` row numbers laid out as `[E, 1]`.

  * GATHER. `x[src]` is `stablehlo.gather` with offset_dims `[1]`, collapsed_slice_dims `[0]`, start_index_map `[0]`,
    index_vector_dim `1` and slice_sizes `[1, W]`; the result is `[E, W]`. Its entry `(e, f)` is `x` at row
    `clamp(src[e, 0])` and column `f`: the start index is read as a signed integer and clamped into `[0, N − 1]`
    (`srcRow`, `rowGather_apply`).

  * SCATTER-ADD. A segment sum of updates `upd : [E, W]` into an operand `x : [N, W]` is `stablehlo.scatter` with an
    `add` body, update_window_dims `[1]`, inserted_window_dims `[0]`, scatter_dims_to_operand_dims `[0]` and
    index_vector_dim `1`. Update entry `(e, f)` lands at operand entry `(dst[e, 0], f)`, the row number read as a signed
    integer and NOT clamped: an update whose row number is negative or at least `N` lands nowhere and is dropped
    (`lands`, `rowScatter_resultIdx_eq_some_iff`). Over the extended reals the result at `(r, c)` is therefore
    `x (r, c) + ∑ e, [dst[e, 0] = r] · upd (e, c)` (`rowScatterAdd_apply`): the sum over the rank-2 set of update
    indices splits into the double sum over `(e, f)`, and the inner sum over `f` keeps the one term `f = c`.

  * BOTH. Scatter-adding the gathered rows gives, at `(r, c)`,
    `x0 (r, c) + ∑ e, [dst[e, 0] = r] · feat (clamp(src[e, 0]), c)` (`aggregate_apply`): the sum, over the edges `e` whose
    destination is row `r`, of the source rows' entries in column `c`.

  All extents `N E W` and the index width `w` are variables; only the ranks and the dimension numbers are literal.
-/
import Idealize.ShloMosaic.PureOps.Ideal
import Idealize.ShloMosaic.Lib.ValueIdx

noncomputable section

open scoped BigOperators

namespace Cert.LibRowAggregate

open Idealize.ShloMosaic Idealize.ShloMosaic.ValueIdx

/-! ## Two axes: which of them the dimension numbers name -/

/-- On two axes, axis 1 is not in the list holding axis 0 alone. -/
private theorem one_not_mem : (1 : Fin 2) ∉ [(0 : Fin 2)] := by decide
/-- Of two axes, axis 0 is not among those left after removing axis 0. -/
private theorem zero_not_mem_kept : (0 : Fin 2) ∉ (List.finRange 2).filter (fun a : Fin 2 => a ∉ [(0 : Fin 2)]) := by decide
/-- Of two axes, axis 1 is among those left after removing axis 0. -/
private theorem one_mem_kept : (1 : Fin 2) ∈ (List.finRange 2).filter (fun a : Fin 2 => a ∉ [(0 : Fin 2)]) := by decide

/-! ## The dimension numbers -/

/-- The gather's dimension numbers for an operand `[N, W]`, start indices `[E, 1]` and a result `[E, W]`: whole rows
    (slice `[1, W]`, the row axis collapsed, the column axis the result's offset axis), the one component of each start
    index naming the row. Their conditions `wf` are decided on literal extents. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The scatter's dimension numbers for an operand `[N, W]`, scatter indices `[E, 1]` and updates `[E, W]`: each update
    row is a window along the column axis, the row axis is inserted, and the one component of each scatter index names
    the row. Their conditions `wf` are decided on literal extents. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

/-! ## The gather read at an entry -/

/-- The row the gather reads for position `e`: the start index `idx[e, 0]` read as a signed integer and clamped into
    `[0, N − 1]` (a negative one reads row 0, one past the end reads the last row). -/
def srcRow {E w : Nat} (N : Nat) (hN : 0 < N) (idx : IVec ⟨2, ![E, 1]⟩ w) (e : Fin E) : Fin N :=
  ⟨min (idx (ix2 e (0 : Fin 1))).toInt.toNat (N - 1), by omega⟩

/-- THE GATHER READ AT `(e, f)`: the operand at row `srcRow e` and column `f`. On the row axis the operand coordinate is
    the clamped start (no batching, no offset: the axis is collapsed); on the column axis it is the result's own
    column (start `0`: the start index map does not name that axis). -/
theorem rowGather_apply {α : Type} {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (f : Fin W) :
    Host.gather (rowGatherDims N E W wf) x idx (ix2 e f) = x (ix2 (srcRow N hN idx e) f) := by
  unfold Host.gather
  congr 1
  funext a
  refine Fin.ext ?_
  match a with
  | ⟨0, _⟩ =>
    show (rowGatherDims N E W wf).start (ix2 e f) idx 0 + (rowGatherDims N E W wf).batchCoord (ix2 e f) 0
      + (rowGatherDims N E W wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E W wf).startIndexMap from List.mem_singleton.mpr rfl)]
    have hsi : (rowGatherDims N E W wf).siIdx (ix2 e f) ⟨List.idxOf (0 : Fin 2) (rowGatherDims N E W wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E W wf).start (ix2 e f) idx 1 + (rowGatherDims N E W wf).batchCoord (ix2 e f) 1
      + (rowGatherDims N E W wf).offCoord (ix2 e f) 1 = _
    rw [GatherDims.batchCoord_eq_zero _ _ _ List.not_mem_nil]
    have hs : (rowGatherDims N E W wf).start (ix2 e f) idx 1 = 0 := by
      unfold GatherDims.start
      rw [dif_neg (show (1 : Fin 2) ∉ (rowGatherDims N E W wf).startIndexMap from one_not_mem)]
    have ho : (rowGatherDims N E W wf).offCoord (ix2 e f) 1 = f.val := by
      unfold GatherDims.offCoord
      rw [dif_pos (show (1 : Fin 2) ∈ (rowGatherDims N E W wf).sKept from one_mem_kept)]
      rfl
    rw [hs, ho]
    simp

/-! ## Where an update lands -/

/-- Update row `e` lands on operand row `r`: the scatter index `idx[e, 0]`, read as a signed integer, IS `r` (no
    clamping: a negative row number, or one that is `N` or more, lands on no row). -/
def lands {N E w : Nat} (idx : IVec ⟨2, ![E, 1]⟩ w) (e : Fin E) (r : Fin N) : Prop :=
  (idx (ix2 e (0 : Fin 1))).toInt = (r.val : Int)

instance {N E w : Nat} (idx : IVec ⟨2, ![E, 1]⟩ w) (e : Fin E) (r : Fin N) : Decidable (lands idx e r) := by
  unfold lands; infer_instance

/-- On the row axis, update entry `(e, f)` goes to the signed scatter index `idx[e, 0]`: the start is that index and
    the window coordinate is `0` (the axis is inserted). -/
theorem rowScatter_pos0 {N E W w : Nat}
    (wf : ScatterDims.WF ⟨2, ![N, W]⟩ ⟨2, ![E, 1]⟩ ⟨2, ![E, W]⟩ [1] [0] [0] 1)
    (idx : IVec ⟨2, ![E, 1]⟩ w) (e : Fin E) (f : Fin W) :
    (rowScatterDims N E W wf).start (ix2 e f) idx 0 + (rowScatterDims N E W wf).window (ix2 e f) 0
      = (idx (ix2 e (0 : Fin 1))).toInt := by
  have hw : (rowScatterDims N E W wf).window (ix2 e f) 0 = 0 := by
    unfold ScatterDims.window
    rw [dif_neg (show (0 : Fin 2) ∉ (rowScatterDims N E W wf).sKept from zero_not_mem_kept)]
  rw [hw]
  unfold ScatterDims.start
  rw [dif_pos (show (0 : Fin 2) ∈ (rowScatterDims N E W wf).scatterDimsToOperandDims from List.mem_singleton.mpr rfl)]
  have hsi : (rowScatterDims N E W wf).siIdx (ix2 e f) ⟨List.idxOf (0 : Fin 2) (rowScatterDims N E W wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp

/-- On the column axis, update entry `(e, f)` goes to column `f`: the start is `0` (the map does not name the axis) and
    the window coordinate is the update's own column. -/
theorem rowScatter_pos1 {N E W w : Nat}
    (wf : ScatterDims.WF ⟨2, ![N, W]⟩ ⟨2, ![E, 1]⟩ ⟨2, ![E, W]⟩ [1] [0] [0] 1)
    (idx : IVec ⟨2, ![E, 1]⟩ w) (e : Fin E) (f : Fin W) :
    (rowScatterDims N E W wf).start (ix2 e f) idx 1 + (rowScatterDims N E W wf).window (ix2 e f) 1
      = (f.val : Int) := by
  have hs : (rowScatterDims N E W wf).start (ix2 e f) idx 1 = 0 := by
    unfold ScatterDims.start
    rw [dif_neg (show (1 : Fin 2) ∉ (rowScatterDims N E W wf).scatterDimsToOperandDims from one_not_mem)]
  have hw : (rowScatterDims N E W wf).window (ix2 e f) 1 = f.val := by
    unfold ScatterDims.window
    rw [dif_pos (show (1 : Fin 2) ∈ (rowScatterDims N E W wf).sKept from one_mem_kept)]
    rfl
  rw [hs, hw]
  simp

/-- WHERE UPDATE ENTRY `(e, f)` LANDS: at operand entry `(r, c)` exactly when its row lands on `r` and its column is `c`.
    (If the signed row number is outside `[0, N)` the entry lands nowhere, and then it lands on no `r`.) -/
theorem rowScatter_resultIdx_eq_some_iff {N E W w : Nat}
    (wf : ScatterDims.WF ⟨2, ![N, W]⟩ ⟨2, ![E, 1]⟩ ⟨2, ![E, W]⟩ [1] [0] [0] 1)
    (idx : IVec ⟨2, ![E, 1]⟩ w) (e : Fin E) (f : Fin W) (r : Fin N) (c : Fin W) :
    (rowScatterDims N E W wf).resultIdx? (ix2 e f) idx = some (ix2 r c) ↔ (lands idx e r ∧ f = c) := by
  have h0 := rowScatter_pos0 wf idx e f
  have h1 := rowScatter_pos1 wf idx e f
  unfold ScatterDims.resultIdx?
  unfold lands
  constructor
  · intro h
    split at h
    · rename_i hall
      have heq := Option.some.inj h
      have e0 : ((rowScatterDims N E W wf).start (ix2 e f) idx 0 + (rowScatterDims N E W wf).window (ix2 e f) 0).toNat = r.val :=
        congrArg Fin.val (congrFun heq (0 : Fin 2))
      have e1 : ((rowScatterDims N E W wf).start (ix2 e f) idx 1 + (rowScatterDims N E W wf).window (ix2 e f) 1).toNat = c.val :=
        congrArg Fin.val (congrFun heq (1 : Fin 2))
      have p0 := (hall (0 : Fin 2)).1
      rw [h0] at e0 p0
      rw [h1] at e1
      refine ⟨by omega, Fin.ext (by omega)⟩
    · exact absurd h (by simp)
  · rintro ⟨hl, rfl⟩
    have hall : ∀ a : Fin 2, 0 ≤ (rowScatterDims N E W wf).start (ix2 e f) idx a + (rowScatterDims N E W wf).window (ix2 e f) a ∧
        (rowScatterDims N E W wf).start (ix2 e f) idx a + (rowScatterDims N E W wf).window (ix2 e f) a
          < ((⟨2, ![N, W]⟩ : Shape).size a : Int) := by
      intro a
      match a with
      | ⟨0, _⟩ =>
        show 0 ≤ (rowScatterDims N E W wf).start (ix2 e f) idx 0 + (rowScatterDims N E W wf).window (ix2 e f) 0 ∧
          (rowScatterDims N E W wf).start (ix2 e f) idx 0 + (rowScatterDims N E W wf).window (ix2 e f) 0 < (N : Int)
        rw [h0, hl]; have := r.isLt; omega
      | ⟨1, _⟩ =>
        show 0 ≤ (rowScatterDims N E W wf).start (ix2 e f) idx 1 + (rowScatterDims N E W wf).window (ix2 e f) 1 ∧
          (rowScatterDims N E W wf).start (ix2 e f) idx 1 + (rowScatterDims N E W wf).window (ix2 e f) 1 < (W : Int)
        rw [h1]; have := f.isLt; omega
    rw [dif_pos hall]
    congr 1
    funext a
    refine Fin.ext ?_
    match a with
    | ⟨0, _⟩ =>
      show ((rowScatterDims N E W wf).start (ix2 e f) idx 0 + (rowScatterDims N E W wf).window (ix2 e f) 0).toNat = r.val
      rw [h0, hl]; simp
    | ⟨1, _⟩ =>
      show ((rowScatterDims N E W wf).start (ix2 e f) idx 1 + (rowScatterDims N E W wf).window (ix2 e f) 1).toNat = f.val
      rw [h1]; simp

/-! ## The scatter-add read at an entry -/

/-- THE SCATTER-ADD READ AT `(r, c)`, over the extended reals: the operand's entry plus the sum, over the update rows
    `e` that land on row `r`, of the update's entry `(e, c)`. The sum over the update entries that land at `(r, c)` is the
    double sum over `(e, f)` of the entries with `lands e r` and `f = c`; for each `e` the inner sum keeps the one
    term `f = c`. Only commutativity and associativity of the sum are used, so infinite entries need no care. -/
theorem rowScatterAdd_apply {N E W w : Nat}
    (wf : ScatterDims.WF ⟨2, ![N, W]⟩ ⟨2, ![E, 1]⟩ ⟨2, ![E, W]⟩ [1] [0] [0] 1)
    (x : (⟨2, ![N, W]⟩ : Shape).Idx → EReal) (idx : IVec ⟨2, ![E, 1]⟩ w)
    (upd : (⟨2, ![E, W]⟩ : Shape).Idx → EReal) (r : Fin N) (c : Fin W) :
    Ideal.hostScatterAdd (rowScatterDims N E W wf) x idx upd (ix2 r c)
      = x (ix2 r c) + ∑ e : Fin E, if lands idx e r then upd (ix2 e c) else 0 := by
  unfold Ideal.hostScatterAdd
  congr 1
  rw [Finset.sum_filter, sum_idx2]
  refine Finset.sum_congr rfl fun e _ => ?_
  simp only [rowScatter_resultIdx_eq_some_iff]
  by_cases hl : lands idx e r
  · simp [hl]
  · simp [hl]

/-! ## Gathered rows, scatter-added -/

/-- GATHER THEN SCATTER-ADD, READ AT `(r, c)`: the operand's entry plus the sum, over the positions `e` whose
    destination `didx[e, 0]` is row `r`, of `feat` at the (clamped) source row `sidx[e, 0]` and column `c`. -/
theorem aggregate_apply {N E W w : Nat} (hN : 0 < N)
    (wfs : ScatterDims.WF ⟨2, ![N, W]⟩ ⟨2, ![E, 1]⟩ ⟨2, ![E, W]⟩ [1] [0] [0] 1)
    (wfg : GatherDims.WF ⟨2, ![N, W]⟩ ⟨2, ![E, 1]⟩ ⟨2, ![E, W]⟩ [1] [0] [] [0] [] 1 ![1, W])
    (x0 : (⟨2, ![N, W]⟩ : Shape).Idx → EReal) (didx sidx : IVec ⟨2, ![E, 1]⟩ w)
    (feat : (⟨2, ![N, W]⟩ : Shape).Idx → EReal) (r : Fin N) (c : Fin W) :
    Ideal.hostScatterAdd (rowScatterDims N E W wfs) x0 didx (Host.gather (rowGatherDims N E W wfg) feat sidx) (ix2 r c)
      = x0 (ix2 r c) + ∑ e : Fin E, if lands didx e r then feat (ix2 (srcRow N hN sidx e) c) else 0 := by
  rw [rowScatterAdd_apply]
  congr 1
  refine Finset.sum_congr rfl fun e _ => ?_
  rw [rowGather_apply hN]

/-! ## The same two reads, stated on the host operation at the extended-real instance -/

/-- `rowScatterAdd_apply` for the host's accumulating scatter itself: at the extended-real instance it is the exact sum
    above, at every float format `φ` (the format does not enter: the values are extended reals). -/
theorem rowHostScatterAdd_apply {φ : FTy} {N E W w : Nat}
    (wf : ScatterDims.WF ⟨2, ![N, W]⟩ ⟨2, ![E, 1]⟩ ⟨2, ![E, W]⟩ [1] [0] [0] 1)
    (x : FVec Ideal ⟨2, ![N, W]⟩ φ) (idx : IVec ⟨2, ![E, 1]⟩ w)
    (upd : FVec Ideal ⟨2, ![E, W]⟩ φ) (r : Fin N) (c : Fin W) :
    Host.scatterAdd (rowScatterDims N E W wf) x idx upd (ix2 r c)
      = x (ix2 r c) + ∑ e : Fin E, if lands idx e r then upd (ix2 e c) else 0 :=
  rowScatterAdd_apply wf x idx upd r c

/-- `aggregate_apply` for the host's accumulating scatter itself, at the extended-real instance. -/
theorem hostAggregate_apply {φ : FTy} {N E W w : Nat} (hN : 0 < N)
    (wfs : ScatterDims.WF ⟨2, ![N, W]⟩ ⟨2, ![E, 1]⟩ ⟨2, ![E, W]⟩ [1] [0] [0] 1)
    (wfg : GatherDims.WF ⟨2, ![N, W]⟩ ⟨2, ![E, 1]⟩ ⟨2, ![E, W]⟩ [1] [0] [] [0] [] 1 ![1, W])
    (x0 : FVec Ideal ⟨2, ![N, W]⟩ φ) (didx sidx : IVec ⟨2, ![E, 1]⟩ w)
    (feat : FVec Ideal ⟨2, ![N, W]⟩ φ) (r : Fin N) (c : Fin W) :
    Host.scatterAdd (rowScatterDims N E W wfs) x0 didx (Host.gather (rowGatherDims N E W wfg) feat sidx) (ix2 r c)
      = x0 (ix2 r c) + ∑ e : Fin E, if lands didx e r then feat (ix2 (srcRow N hN sidx e) c) else 0 :=
  aggregate_apply hN wfs wfg x0 didx sidx feat r c

end Cert.LibRowAggregate

end
-- ==== Proof.LibRealSums.lean ====
/-
  Real-valued extended reals and the one law that needs them.

  On the extended reals addition is commutative and associative, but multiplication does not distribute over
  addition at the infinities. Sums of REAL numbers (extended reals that are neither infinity) behave as in the real
  field: they are closed under +, ·, max and finite sums, and a finite sum of reals times a real is the sum of the
  products. From that follows the exchange used for a graph layer: adding up, over the edges e that land on a node,
  the projected rows  ∑_k a(e,k) · w(k)  gives the same as projecting the added-up rows,
      ∑_e [e lands] ∑_k a(e,k) · w(k)  =  ∑_k (∑_e [e lands] a(e,k)) · w(k).
-/
import Mathlib.Data.EReal.Basic
import Mathlib.Data.EReal.Operations
import Mathlib.Algebra.BigOperators.Group.Finset.Basic
import Mathlib.Algebra.BigOperators.Ring.Finset
import Mathlib.Algebra.BigOperators.Group.Finset.Sigma

noncomputable section

open scoped BigOperators

namespace Cert.RealSums

/-- An extended real that is a real number. -/
def IsReal (x : EReal) : Prop := ∃ r : ℝ, x = (r : EReal)

theorem isReal_zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem isReal_sum {ι : Type} (s : Finset ι) (f : ι → EReal) (h : ∀ i ∈ s, IsReal (f i)) : IsReal (∑ i ∈ s, f i) :=
  Finset.sum_induction f IsReal (fun _ _ => IsReal.add) isReal_zero h

theorem isReal_ite {p : Prop} [Decidable p] {x : EReal} (hx : IsReal x) : IsReal (if p then x else 0) := by
  split
  · exact hx
  · exact isReal_zero

/-- Right distributivity for three real numbers. -/
theorem add_mul_of_real {a b w : EReal} (ha : IsReal a) (hb : IsReal b) (hw : IsReal w) : (a + b) * w = a * w + b * w := by
  obtain ⟨a, rfl⟩ := ha
  obtain ⟨b, rfl⟩ := hb
  obtain ⟨w, rfl⟩ := hw
  exact_mod_cast congrArg (fun t : ℝ => (t : EReal)) (add_mul a b w)

/-- A finite sum of reals times a real is the sum of the products. -/
theorem sum_mul_of_real {ι : Type} (s : Finset ι) (a : ι → EReal) (w : EReal) (ha : ∀ i, IsReal (a i)) (hw : IsReal w) :
    (∑ i ∈ s, a i) * w = ∑ i ∈ s, a i * w := by
  classical
  induction s using Finset.induction_on with
  | empty => simp
  | insert i s hi ih =>
    rw [Finset.sum_insert hi, Finset.sum_insert hi, add_mul_of_real (ha i) (isReal_sum s a fun j _ => ha j) hw, ih]

/-- Projecting the rows that land and adding them up is adding them up and projecting, for real data. -/
theorem sum_ite_sum_mul {ι κ : Type} [Fintype ι] [Fintype κ] (p : ι → Prop) [DecidablePred p] (a : ι → κ → EReal) (w : κ → EReal)
    (ha : ∀ e k, IsReal (a e k)) (hw : ∀ k, IsReal (w k)) :
    ∑ e, (if p e then ∑ k, a e k * w k else 0) = ∑ k, (∑ e, if p e then a e k else 0) * w k := by
  have h1 : ∀ k, (∑ e, if p e then a e k else 0) * w k = ∑ e, if p e then a e k * w k else 0 := by
    intro k
    rw [sum_mul_of_real _ _ _ (fun e => isReal_ite (ha e k)) (hw k)]
    refine Finset.sum_congr rfl fun e _ => ?_
    split
    · rfl
    · exact zero_mul _
  rw [Finset.sum_congr rfl fun k _ => h1 k, Finset.sum_comm]
  refine Finset.sum_congr rfl fun e _ => ?_
  split
  · rfl
  · exact Finset.sum_const_zero.symm

end Cert.RealSums

end
-- ==== Proof.Algebra.lean ====
/-
  The algebra that joins the two programs of a two-layer mean-aggregating graph network.

  Nodes `ν`, edges `ε`. An edge `e` lands on node `r` when `lands e r`; its source node is `src e`. For a table of
  node features the aggregate at node `r` and column `c` is the sum over the edges landing on `r` of the source
  node's entry (`aggS`). A layer's mean divides the aggregate by a per-node count `D r` (at least one, so a nonzero
  real).

  One program multiplies by the reciprocal `1 / D r` where the other divides by `D r`: for a nonzero real divisor these
  agree on every extended real (`mul_recip_eq_div`). In the second layer one program projects the hidden rows by the
  weight matrix BEFORE aggregating and takes the mean last, the other aggregates the hidden rows, takes the mean and
  projects after:
      (∑_e [e lands on r] ∑_j h(src e, j) · w(j, c)) · (1 / D r)   =   ∑_j ((∑_e [e lands on r] h(src e, j)) / D r) · w(j, c).
  This moves a factor across sums, which on the extended reals holds for real-valued data only; the hidden rows are real
  because the inputs are (`isReal_hid`), and that is where the finiteness of the inputs is used.
-/
import Idealize.ShloMosaic.PureOps.Ideal
import proofs.«127952_j55009941127683_2_alg».proof.Proof.LibRealSums

noncomputable section

open scoped BigOperators

namespace Cert.SageAlgebra

open Idealize.ShloMosaic Cert.RealSums

/-- The float word of one is the number one. -/
theorem ofBits_one : Ideal.ofBits .f32 0x3F800000#32 = 1 := by
  simp [Ideal.ofBits, Ideal.ieee, -EReal.coe_mul]; norm_num

/-- Multiplying by the reciprocal of a nonzero real is dividing by it, for every extended real `a`. -/
theorem mul_recip_eq_div {D : EReal} (hD : ∃ d : ℝ, d ≠ 0 ∧ D = (d : EReal)) (a : EReal) :
    a * Ideal.div 1 D = Ideal.div a D := by
  obtain ⟨d, hd, rfl⟩ := hD
  rw [Ideal.div_coe hd, Ideal.div_coe hd, one_mul]

/-- The reciprocal of a nonzero real is a real. -/
theorem isReal_recip {D : EReal} (hD : ∃ d : ℝ, d ≠ 0 ∧ D = (d : EReal)) : IsReal (Ideal.div 1 D) := by
  obtain ⟨d, hd, rfl⟩ := hD
  rw [Ideal.div_coe hd, one_mul]
  exact ⟨_, rfl⟩

/-- A real divided by a nonzero real is a real. -/
theorem isReal_div {a D : EReal} (ha : IsReal a) (hD : ∃ d : ℝ, d ≠ 0 ∧ D = (d : EReal)) : IsReal (Ideal.div a D) := by
  rw [← mul_recip_eq_div hD]
  exact ha.mul (isReal_recip hD)

/-- Project, aggregate, scale  =  aggregate, scale, project — for real data. -/
theorem project_then_aggregate {ι κ : Type} [Fintype ι] [Fintype κ] (p : ι → Prop) [DecidablePred p]
    (a : ι → κ → EReal) (w : κ → EReal) (i : EReal) (ha : ∀ e k, IsReal (a e k)) (hw : ∀ k, IsReal (w k)) (hi : IsReal i) :
    (∑ e, if p e then ∑ k, a e k * w k else 0) * i = ∑ k, ((∑ e, if p e then a e k else 0) * i) * w k := by
  rw [sum_ite_sum_mul p a w ha hw,
    sum_mul_of_real _ _ _ (fun k => IsReal.mul (isReal_sum _ _ (fun e _ => isReal_ite (ha e k))) (hw k)) hi]
  exact Finset.sum_congr rfl fun k _ => mul_right_comm _ _ _

section Layers

variable {ν ε κ₁ κ₂ κ₃ : Type} [Fintype ε] [Fintype κ₁] [Fintype κ₂]
variable (lands : ε → ν → Prop) [∀ e r, Decidable (lands e r)] (src : ε → ν)

/-- The aggregate of a feature table at node `r`, column `c`: the sum over the edges landing on `r` of the source node's entry. -/
def aggS {κ : Type} (feat : ν → κ → EReal) (r : ν) (c : κ) : EReal := ∑ e, if lands e r then feat (src e) c else 0

theorem isReal_aggS {κ : Type} {feat : ν → κ → EReal} (h : ∀ r c, IsReal (feat r c)) (r : ν) (c : κ) :
    IsReal (aggS lands src feat r c) :=
  isReal_sum _ _ fun e _ => isReal_ite (h (src e) c)

/-- The first layer at node `r`, hidden column `j`: the mean row through one weight matrix, the node's own row through
    another, a bias, and the positive part. -/
def hid (mean x : ν → κ₁ → EReal) (wl wr : κ₁ → κ₂ → EReal) (b : κ₂ → EReal) (r : ν) (j : κ₂) : EReal :=
  max (∑ k, mean r k * wl k j + ∑ k, x r k * wr k j + b j) 0

theorem isReal_hid {mean x : ν → κ₁ → EReal} {wl wr : κ₁ → κ₂ → EReal} {b : κ₂ → EReal}
    (hm : ∀ r k, IsReal (mean r k)) (hx : ∀ r k, IsReal (x r k)) (hwl : ∀ k j, IsReal (wl k j)) (hwr : ∀ k j, IsReal (wr k j))
    (hb : ∀ j, IsReal (b j)) (r : ν) (j : κ₂) : IsReal (hid mean x wl wr b r j) :=
  IsReal.max (((isReal_sum _ _ fun k _ => (hm r k).mul (hwl k j)).add (isReal_sum _ _ fun k _ => (hx r k).mul (hwr k j))).add (hb j))
    isReal_zero

variable (D : ν → EReal) (x : ν → κ₁ → EReal) (wl wr : κ₁ → κ₂ → EReal) (b1 : κ₂ → EReal)
  (w2l w2r : κ₂ → κ₃ → EReal) (b2 : κ₃ → EReal)

/-- The hidden table when the mean is the aggregate TIMES the reciprocal count. -/
def hidK : ν → κ₂ → EReal := hid (fun r k => aggS lands src x r k * Ideal.div 1 (D r)) x wl wr b1

/-- The hidden table when the mean is the aggregate DIVIDED by the count. -/
def hidR : ν → κ₂ → EReal := hid (fun r k => Ideal.div (aggS lands src x r k) (D r)) x wl wr b1

/-- Project-then-aggregate: the hidden rows go through `w2l` first, the projected rows are aggregated and scaled by the
    reciprocal count; the logistic function last. -/
def outK (r : ν) (c : κ₃) : EReal :=
  Ideal.logistic (aggS lands src (fun r' c' => ∑ j, hidK lands src D x wl wr b1 r' j * w2l j c') r c * Ideal.div 1 (D r)
    + ∑ j, hidK lands src D x wl wr b1 r j * w2r j c + b2 c)

/-- Aggregate-then-project: the hidden rows are aggregated and divided by the count, then go through `w2l`; the logistic
    function spelled out as `1 / (1 + e^(-t))`. -/
def outR (r : ν) (c : κ₃) : EReal :=
  Ideal.div 1 (1 + Ideal.exp (-(∑ j, Ideal.div (aggS lands src (hidR lands src D x wl wr b1) r j) (D r) * w2l j c
    + ∑ j, hidR lands src D x wl wr b1 r j * w2r j c + b2 c)))

variable {D x wl wr b1 w2l}

theorem hidK_eq_hidR (hD : ∀ r, ∃ d : ℝ, d ≠ 0 ∧ D r = (d : EReal)) :
    hidK lands src D x wl wr b1 = hidR lands src D x wl wr b1 := by
  unfold hidK hidR
  congr 1
  funext r k
  exact mul_recip_eq_div (hD r) _

theorem isReal_hidR (hD : ∀ r, ∃ d : ℝ, d ≠ 0 ∧ D r = (d : EReal)) (hx : ∀ r k, IsReal (x r k))
    (hwl : ∀ k j, IsReal (wl k j)) (hwr : ∀ k j, IsReal (wr k j)) (hb : ∀ j, IsReal (b1 j)) (r : ν) (j : κ₂) :
    IsReal (hidR lands src D x wl wr b1 r j) :=
  isReal_hid (fun r k => isReal_div (isReal_aggS lands src hx r k) (hD r)) hx hwl hwr hb r j

/-- THE TWO PROGRAMS' RESULTS AGREE, entry by entry, when the counts are nonzero reals and the first layer's inputs and
    the projecting weight matrix are real. -/
theorem outK_eq_outR (hD : ∀ r, ∃ d : ℝ, d ≠ 0 ∧ D r = (d : EReal)) (hx : ∀ r k, IsReal (x r k))
    (hwl : ∀ k j, IsReal (wl k j)) (hwr : ∀ k j, IsReal (wr k j)) (hb : ∀ j, IsReal (b1 j))
    (hw2 : ∀ j c, IsReal (w2l j c)) (r : ν) (c : κ₃) :
    outK lands src D x wl wr b1 w2l w2r b2 r c = outR lands src D x wl wr b1 w2l w2r b2 r c := by
  unfold outK outR
  rw [hidK_eq_hidR lands src hD]
  have hh := isReal_hidR lands src hD hx hwl hwr hb
  have key : aggS lands src (fun r' c' => ∑ j, hidR lands src D x wl wr b1 r' j * w2l j c') r c * Ideal.div 1 (D r)
      = ∑ j, Ideal.div (aggS lands src (hidR lands src D x wl wr b1) r j) (D r) * w2l j c := by
    unfold aggS
    rw [project_then_aggregate (fun e => lands e r) (fun e j => hidR lands src D x wl wr b1 (src e) j) (fun j => w2l j c)
      (Ideal.div 1 (D r)) (fun e j => hh (src e) j) (fun j => hw2 j c) (isReal_recip (hD r))]
    refine Finset.sum_congr rfl fun j _ => ?_
    rw [mul_recip_eq_div (hD r)]
  rw [key]
  rfl

end Layers

end Cert.SageAlgebra

end
-- ==== Proof.HostReads.lean ====
/-
  The host stages of the graph layer read at an entry, in exact arithmetic.

  With `lands e r` — edge `e`'s destination number, read as a signed integer, is node `r` — and `src e` — edge `e`'s source
  number, a negative one wrapped once, clamped into the node range —: the neighbour sum of a table at `(r, c)` is the sum
  over the edges landing on `r` of the table's entry `(src e, c)`; the count of node `r` is the number of edges
  landing on it, or one if none does — a real number that is at least one; and the reciprocal column holds `1 / count`.
-/
import proofs.«127952_j55009941127683_2_alg».proof.Proof.HostK
import proofs.«127952_j55009941127683_2_alg».proof.Proof.LibRowAggregate
import proofs.«127952_j55009941127683_2_alg».proof.Proof.LibLayout
import proofs.«127952_j55009941127683_2_alg».proof.Proof.Algebra
import Idealize.ShloMosaic.Lib.ValueLayout
import Idealize.ShloMosaic.Lib.Pipeline.Value

set_option maxRecDepth 16384

noncomputable section

open scoped BigOperators

namespace Cert.KernelIdeal.HostSide

open Cert.KernelIdeal Cert.KernelIdeal.Gen Idealize.ShloMosaic Idealize.ShloMosaic.ValueIdx Cert.RealSums Cert.SageAlgebra

/-- A scalar broadcast to any shape reads the scalar everywhere. -/
theorem bcast_scalar_apply {s : Shape} {α : Type} (h : (⟨0, ![]⟩ : Shape).BroadcastsInDim s ![]) (y : (⟨0, ![]⟩ : Shape).Idx → α)
    (i : s.Idx) : broadcastInDim s ![] h y i = y ix0 :=
  broadcastInDim_apply _ h y i ix0 (fun a => a.elim0)

/-- Edge `e` lands on node `r`. -/
abbrev landsE (a1 : CI S2x640000) (e : Fin 640000) (r : Fin 100000) : Prop := Cert.LibRowAggregate.lands (dstI a1) e r
/-- Edge `e`'s source node. -/
def srcE (a1 : CI S2x640000) (e : Fin 640000) : Fin 100000 := Cert.LibRowAggregate.srcRow 100000 (by decide) (srcI a1) e

/-- The neighbour sum of a 128-column table at `(r, k)`. -/
theorem agg128_apply (a0 : CF S100000x128) (a1 : CI S2x640000) (r : Fin 100000) (k : Fin 128) :
    agg128 a0 a1 (ix2 r k) = aggS (landsE a1) (srcE a1) (fun r k => a0 (ix2 r k)) r k := by
  unfold agg128
  refine (Cert.LibRowAggregate.hostAggregate_apply (by decide) scatter_S100000x128_S640000x1_S640000x128_1_0_0_1.wf
    gather_S100000x128_S640000x1_S640000x128_1_0_n_n_0_1_1128.wf _ (dstI a1) (srcI a1) a0 r k).trans ?_
  rw [bcast_scalar_apply, constant_apply, Ideal.ofBits_zero_f32, zero_add]
  rfl

/-- The neighbour sum of a 100-column table at `(r, c)`. -/
theorem agg100_apply (q : CF S100000x100) (a1 : CI S2x640000) (r : Fin 100000) (c : Fin 100) :
    agg100v q (srcVec a1) (dstVec a1) (ix2 r c) = aggS (landsE a1) (srcE a1) (fun r c => q (ix2 r c)) r c := by
  unfold agg100v
  refine (Cert.LibRowAggregate.hostAggregate_apply (by decide) scatter_S100000x100_S640000x1_S640000x100_1_0_0_1.wf
    gather_S100000x100_S640000x1_S640000x100_1_0_n_n_0_1_1100.wf _ (dstI a1) (srcI a1) q r c).trans ?_
  rw [bcast_scalar_apply, constant_apply, Ideal.ofBits_zero_f32, zero_add]
  rfl

/-- The larger of a real and one is a nonzero real. -/
theorem exists_real_max_one {x : EReal} (hx : IsReal x) : ∃ d : ℝ, d ≠ 0 ∧ max x 1 = (d : EReal) := by
  obtain ⟨d, hd⟩ := IsReal.max hx ⟨1, EReal.coe_one.symm⟩
  refine ⟨d, ?_, hd⟩
  have h1 : (1 : EReal) ≤ (d : EReal) := hd ▸ le_max_right _ _
  have h2 : (1 : ℝ) ≤ d := by exact_mod_cast h1
  exact ne_of_gt (lt_of_lt_of_le one_pos h2)

/-- A node's count is a nonzero real. -/
theorem cnt_real (a1 : CI S2x640000) (r : Fin 100000) : ∃ d : ℝ, d ≠ 0 ∧ cnt a1 (ix1 r) = (d : EReal) := by
  unfold cnt
  rw [maximumf_apply, bcast_scalar_apply, constant_apply, ofBits_one]
  show ∃ d : ℝ, d ≠ 0 ∧ max (Ideal.hostScatterAdd _ _ (dstI a1) _ (ix1 r)) 1 = (d : EReal)
  unfold Ideal.hostScatterAdd
  refine exists_real_max_one (IsReal.add ?_ (isReal_sum _ _ fun j _ => ?_))
  · rw [bcast_scalar_apply, constant_apply, Ideal.ofBits_zero_f32]; exact isReal_zero
  · rw [bcast_scalar_apply, constant_apply, ofBits_one]; exact ⟨1, EReal.coe_one.symm⟩

/-- The reciprocal column at node `r`. -/
theorem invCol_apply (a1 : CI S2x640000) (r : Fin 100000) : invCol a1 (ix2 r (0 : Fin 1)) = Ideal.div 1 (cnt a1 (ix1 r)) := by
  unfold invCol
  rw [Cert.LibLayout.shapeCast_a_a1_apply]
  simp only [Host.divf, Ideal.hostDivf_def]
  rw [bcast_scalar_apply, constant_apply, ofBits_one]

end Cert.KernelIdeal.HostSide

end
-- ==== Proof.KernelValue.lean ====
/-
  The idealized kernel's result, entry by entry.

  The last region leaves in the result buffer the layer-2 body's value of its operand arrays; those are the neighbour sum of
  the projected rows (a host stage between the regions), the reciprocal counts, the hidden rows and projected rows the
  first region left, the second weight matrix and bias. Unfolding each to the argument arrays gives the
  project-then-aggregate form `outK` of the graph network at every entry.
-/
import proofs.«127952_j55009941127683_2_alg».proof.Proof.RunValue
import proofs.«127952_j55009941127683_2_alg».proof.Proof.Region0
import proofs.«127952_j55009941127683_2_alg».proof.Proof.Region1
import proofs.«127952_j55009941127683_2_alg».proof.Proof.HostK
import proofs.«127952_j55009941127683_2_alg».proof.Proof.HostReads

set_option maxRecDepth 16384

noncomputable section

open scoped BigOperators

namespace Cert.KernelIdeal.KernelValue

open Cert.KernelIdeal Cert.KernelIdeal.Gen Cert.KernelIdeal.HostSide Cert.KernelIdeal.Layer1 Cert.KernelIdeal.Layer2
open Idealize.ShloMosaic Idealize.ShloMosaic.TcCoe Idealize.ShloMosaic.ValueIdx Cert.SageAlgebra

variable (m : (ℓ : Loc nD τ sig) → Buf (Elt Ideal) ℓ) (ρ : Dev nD → PrngReg)

/-- The hidden entry the first region leaves, in the arguments. -/
theorem hidden_eq (c : Dev nD) (r : Fin 100000) (j : Fin 256) :
    hidF (V1 m ρ c main_v22) (V1 m ρ c main_v12) (V1 m ρ c main_arg0) (V1 m ρ c main_v23) (V1 m ρ c main_v24) (V1 m ρ c main_v27) r j
      = hidK (landsE (m ((c : Thread nD τ).loc main_arg1))) (srcE (m ((c : Thread nD τ).loc main_arg1))) (fun r => cnt (m ((c : Thread nD τ).loc main_arg1)) (ix1 r)) (fun r k => (m ((c : Thread nD τ).loc main_arg0)) (ix2 r k))
          (fun k j => (m ((c : Thread nD τ).loc main_arg2)) (ix2 k j)) (fun k j => (m ((c : Thread nD τ).loc main_arg3)) (ix2 k j)) (fun j => (m ((c : Thread nD τ).loc main_arg4)) (ix1 j)) r j := by
  rw [V1_agg, V1_inv, V1_x, V1_wl, V1_wr, V1_b1]
  unfold hidF hidK hid
  simp only [agg128_apply, invCol_apply, truncf_apply, shapeCast_a_1a_apply]

theorem hidden_fun_eq (c : Dev nD) :
    hidF (V1 m ρ c main_v22) (V1 m ρ c main_v12) (V1 m ρ c main_arg0) (V1 m ρ c main_v23) (V1 m ρ c main_v24) (V1 m ρ c main_v27)
      = hidK (landsE (m ((c : Thread nD τ).loc main_arg1))) (srcE (m ((c : Thread nD τ).loc main_arg1))) (fun r => cnt (m ((c : Thread nD τ).loc main_arg1)) (ix1 r)) (fun r k => (m ((c : Thread nD τ).loc main_arg0)) (ix2 r k))
          (fun k j => (m ((c : Thread nD τ).loc main_arg2)) (ix2 k j)) (fun k j => (m ((c : Thread nD τ).loc main_arg3)) (ix2 k j)) (fun j => (m ((c : Thread nD τ).loc main_arg4)) (ix1 j)) :=
  funext fun r => funext fun j => hidden_eq m ρ c r j

/-- The projected array the first region leaves. -/
theorem W2_proj (c : Dev nD) : W2 m ρ c (Proc.devRef .tc main_v29_1)
    = asArray (projF (V1 m ρ c main_v22) (V1 m ρ c main_v12) (V1 m ρ c main_arg0) (V1 m ρ c main_v23) (V1 m ρ c main_v24) (V1 m ρ c main_v27) (V1 m ρ c main_v25)) :=
  (W2_arr m ρ c 8).trans (proj_final (V1 m ρ) c)

/-- The hidden array the first region leaves. -/
theorem W2_hid (c : Dev nD) : W2 m ρ c (Proc.devRef .tc main_v29_0)
    = asArray (hidF (V1 m ρ c main_v22) (V1 m ρ c main_v12) (V1 m ρ c main_arg0) (V1 m ρ c main_v23) (V1 m ρ c main_v24) (V1 m ρ c main_v27)) :=
  (W2_arr m ρ c 7).trans (hidden_final (V1 m ρ) c)

/-- THE KERNEL'S RESULT at `(r, cc)`. -/
theorem kernel_result (c : Dev nD) (r : Fin 100000) (cc : Fin 100) :
    W4 m ρ c (Proc.devRef .tc main_v40) (ix2 r cc)
      = outK (landsE (m ((c : Thread nD τ).loc main_arg1))) (srcE (m ((c : Thread nD τ).loc main_arg1))) (fun r => cnt (m ((c : Thread nD τ).loc main_arg1)) (ix1 r)) (fun r k => (m ((c : Thread nD τ).loc main_arg0)) (ix2 r k))
          (fun k j => (m ((c : Thread nD τ).loc main_arg2)) (ix2 k j)) (fun k j => (m ((c : Thread nD τ).loc main_arg3)) (ix2 k j)) (fun j => (m ((c : Thread nD τ).loc main_arg4)) (ix1 j))
          (fun j c' => (m ((c : Thread nD τ).loc main_arg5)) (ix2 j c')) (fun j c' => (m ((c : Thread nD τ).loc main_arg6)) (ix2 j c')) (fun c' => (m ((c : Thread nD τ).loc main_arg7)) (ix1 c')) r cc := by
  have e1 : W4 m ρ c (Proc.devRef .tc main_v40)
      = asArray (outF (V3 m ρ c main_v39) (V3 m ρ c main_v12) (V3 m ρ c main_v29_0) (V3 m ρ c main_v26) (V3 m ρ c main_v28)) :=
    (W4_arr m ρ c 5).trans (out_final (V3 m ρ) c)
  rw [e1, asArray_ix2]
  rw [V3_aggp, V3_inv, V3_hid, V3_w2r, V3_b2]
  rw [W2_of_ne m ρ c main_v1 (by decide), W2_of_ne m ρ c main_v3 (by decide),
    W2_of_ne m ρ c main_v26 (by decide), W2_of_ne m ρ c main_v28 (by decide)]
  rw [W1_src, W1_dst, W1_w2r, W1_b2, W2_proj, W2_hid]
  rw [show W2 m ρ c (Proc.devRef .tc main_v12) = invCol (m ((c : Thread nD τ).loc main_arg1)) from
      ((W2_arr m ρ c 1).trans (((dat0 (V1 m ρ) c).arrAt_in 1 rfl _).trans (A_eq0 (V1 m ρ) c 1))).trans (V1_inv m ρ c), V1_w2l m ρ c]
  unfold outF
  simp only [agg100_apply, invCol_apply, asArray_ix2, truncf_apply, shapeCast_a_1a_apply]
  unfold outK projF
  rw [hidden_fun_eq m ρ c]
  simp only [truncf_apply]

end Cert.KernelIdeal.KernelValue

end
-- ==== Proof.RefValue.lean ====
/-
  The idealized reference read at an entry.

  The reference computes, for node `r`: the neighbour sum of the feature rows divided by the node's count, through one
  weight matrix, plus the node's own row through another, plus a bias, and the positive part — the hidden row; then the
  same with the hidden rows in place of the features, without the positive part; and `1 / (1 + e^(-t))` of that. Each
  stage is read at an entry from the stage before; the gathers and accumulating scatters are read as sums over the edges
  that land on the node.
-/
import proofs.«127952_j55009941127683_2_alg».proof.Proof.Gen.ReferenceIdeal.Read
import proofs.«127952_j55009941127683_2_alg».proof.Proof.LibRowAggregate
import proofs.«127952_j55009941127683_2_alg».proof.Proof.Algebra
import Idealize.ShloMosaic.PureOps.Ideal.Laws

set_option maxRecDepth 16384

noncomputable section

open scoped BigOperators

namespace Cert.ReferenceIdeal.RefValue

open Cert.ReferenceIdeal Cert.ReferenceIdeal.Read Idealize.ShloMosaic Idealize.ShloMosaic.ValueIdx Cert.SageAlgebra

variable (x0 : (⟨S100000x128, .f32⟩ : BufTy).Contents (Elt Ideal)) (x1 : (⟨S2x640000, .i32⟩ : BufTy).Contents (Elt Ideal)) (x2 x3 : (⟨S128x256, .f32⟩ : BufTy).Contents (Elt Ideal))
  (x4 : (⟨S256, .f32⟩ : BufTy).Contents (Elt Ideal)) (x5 x6 : (⟨S256x100, .f32⟩ : BufTy).Contents (Elt Ideal)) (x7 : (⟨S100, .f32⟩ : BufTy).Contents (Elt Ideal))

/-- Edge `e` lands on node `r`. -/
abbrev landsR (e : Fin 640000) (r : Fin 100000) : Prop := Cert.LibRowAggregate.lands (val_main_v12 (F := Ideal) x1) e r
/-- Edge `e`'s source node. -/
def srcR (e : Fin 640000) : Fin 100000 := Cert.LibRowAggregate.srcRow 100000 (by decide) (val_main_v9 (F := Ideal) x1) e
/-- Node `r`'s count. -/
def cntR (r : Fin 100000) : EReal := val_main_v19 (F := Ideal) x1 (ix1 r)

/-! ## Index maps at explicit coordinates -/

theorem lidx23 (r : Fin 100000) (j : Fin 256) (k : Fin 128) : lidx_main_v23 (ix2 r j) k = ix2 r k :=
  funext fun a => by match a with | ⟨0, _⟩ => rfl | ⟨1, _⟩ => rfl

theorem ridx23 (r : Fin 100000) (j : Fin 256) (k : Fin 128) : ridx_main_v23 (ix2 r j) k = ix2 k j :=
  funext fun a => by match a with | ⟨0, _⟩ => rfl | ⟨1, _⟩ => rfl

theorem lidx24 (r : Fin 100000) (j : Fin 256) (k : Fin 128) : lidx_main_v24 (ix2 r j) k = ix2 r k :=
  funext fun a => by match a with | ⟨0, _⟩ => rfl | ⟨1, _⟩ => rfl

theorem ridx24 (r : Fin 100000) (j : Fin 256) (k : Fin 128) : ridx_main_v24 (ix2 r j) k = ix2 k j :=
  funext fun a => by match a with | ⟨0, _⟩ => rfl | ⟨1, _⟩ => rfl

theorem lidx53 (r : Fin 100000) (c : Fin 100) (j : Fin 256) : lidx_main_v53 (ix2 r c) j = ix2 r j :=
  funext fun a => by match a with | ⟨0, _⟩ => rfl | ⟨1, _⟩ => rfl

theorem ridx53 (r : Fin 100000) (c : Fin 100) (j : Fin 256) : ridx_main_v53 (ix2 r c) j = ix2 j c :=
  funext fun a => by match a with | ⟨0, _⟩ => rfl | ⟨1, _⟩ => rfl

theorem lidx54 (r : Fin 100000) (c : Fin 100) (j : Fin 256) : lidx_main_v54 (ix2 r c) j = ix2 r j :=
  funext fun a => by match a with | ⟨0, _⟩ => rfl | ⟨1, _⟩ => rfl

theorem ridx54 (r : Fin 100000) (c : Fin 100) (j : Fin 256) : ridx_main_v54 (ix2 r c) j = ix2 j c :=
  funext fun a => by match a with | ⟨0, _⟩ => rfl | ⟨1, _⟩ => rfl

theorem cidx21 (r : Fin 100000) (k : Fin 128) : idx_main_v20 (idx_main_v21 (ix2 r k)) = ix1 r :=
  funext fun a => by match a with | ⟨0, _⟩ => rfl

theorem cidx51 (r : Fin 100000) (j : Fin 256) : idx_main_v50 (idx_main_v51 (ix2 r j)) = ix1 r :=
  funext fun a => by match a with | ⟨0, _⟩ => rfl

theorem bidx27 (r : Fin 100000) (j : Fin 256) : idx_main_v26 (idx_main_v27 (ix2 r j)) = ix1 j :=
  funext fun a => by match a with | ⟨0, _⟩ => rfl

theorem bidx57 (r : Fin 100000) (c : Fin 100) : idx_main_v56 (idx_main_v57 (ix2 r c)) = ix1 c :=
  funext fun a => by match a with | ⟨0, _⟩ => rfl

/-! ## The second layer's index columns and counts are the first layer's -/

theorem dst2_eq : val_main_v42 (F := Ideal) x1 = val_main_v12 (F := Ideal) x1 := rfl
theorem src2_eq : val_main_v39 (F := Ideal) x1 = val_main_v9 (F := Ideal) x1 := rfl
theorem cnt2_eq : val_main_v49 (F := Ideal) x1 = val_main_v19 (F := Ideal) x1 := rfl

/-! ## Layer 1 -/

/-- The neighbour sum of the features at `(r, k)`. -/
theorem agg1_apply (r : Fin 100000) (k : Fin 128) :
    val_main_v13 (F := Ideal) x0 x1 (ix2 r k) = aggS (landsR x1) (srcR x1) (fun r k => x0 (ix2 r k)) r k := by
  unfold val_main_v13 val_main_v10
  refine (Cert.LibRowAggregate.hostAggregate_apply (by decide) scatter_S100000x128_S640000x1_S640000x128_1_0_0_1.wf
    gather_S100000x128_S640000x1_S640000x128_1_0_n_n_0_1_1128.wf _ (val_main_v12 (F := Ideal) x1) (val_main_v9 (F := Ideal) x1) x0 r k).trans ?_
  rw [val_main_v11_apply, val_main_cst_apply, Ideal.ofBits_def, Ideal.ofBits_zero_f32, zero_add]
  rfl

/-- The mean row at `(r, k)`. -/
theorem mean1_apply (r : Fin 100000) (k : Fin 128) :
    val_main_v22 (F := Ideal) x0 x1 (ix2 r k) = Ideal.div (aggS (landsR x1) (srcR x1) (fun r k => x0 (ix2 r k)) r k) (cntR x1 r) := by
  rw [val_main_v22_apply, agg1_apply, val_main_v21_apply, val_main_v20_apply, cidx21]
  rfl

/-- The hidden row at `(r, j)`. -/
theorem hid_apply (r : Fin 100000) (j : Fin 256) :
    val_main_v29 (F := Ideal) x0 x1 x2 x3 x4 (ix2 r j)
      = hidR (landsR x1) (srcR x1) (cntR x1) (fun r k => x0 (ix2 r k)) (fun k j => x2 (ix2 k j)) (fun k j => x3 (ix2 k j))
          (fun j => x4 (ix1 j)) r j := by
  rw [val_main_v29_apply, val_main_v28_apply, val_main_v25_apply, val_main_v23_apply, val_main_v24_apply, val_main_v27_apply,
    val_main_v26_apply, val_main_call0_v0_apply, val_main_call0_cst_apply, bidx27]
  simp only [lidx23, ridx23, lidx24, ridx24, mean1_apply, Ideal.ofBits_def, Ideal.ofBits_zero_f32]
  rfl

/-! ## Layer 2 -/

/-- The neighbour sum of the hidden rows at `(r, j)`. -/
theorem agg2_apply (r : Fin 100000) (j : Fin 256) :
    val_main_v43 (F := Ideal) x0 x1 x2 x3 x4 (ix2 r j)
      = aggS (landsR x1) (srcR x1) (fun r j => val_main_v29 (F := Ideal) x0 x1 x2 x3 x4 (ix2 r j)) r j := by
  unfold val_main_v43 val_main_v40
  rw [dst2_eq, src2_eq]
  refine (Cert.LibRowAggregate.hostAggregate_apply (by decide) scatter_S100000x256_S640000x1_S640000x256_1_0_0_1.wf
    gather_S100000x256_S640000x1_S640000x256_1_0_n_n_0_1_1256.wf _ (val_main_v12 (F := Ideal) x1) (val_main_v9 (F := Ideal) x1)
    (val_main_v29 (F := Ideal) x0 x1 x2 x3 x4) r j).trans ?_
  rw [val_main_v41_apply, val_main_cst_6_apply, Ideal.ofBits_def, Ideal.ofBits_zero_f32, zero_add]
  rfl

/-- The second mean row at `(r, j)`. -/
theorem mean2_apply (r : Fin 100000) (j : Fin 256) :
    val_main_v52 (F := Ideal) x0 x1 x2 x3 x4 (ix2 r j)
      = Ideal.div (aggS (landsR x1) (srcR x1) (fun r j => val_main_v29 (F := Ideal) x0 x1 x2 x3 x4 (ix2 r j)) r j) (cntR x1 r) := by
  rw [val_main_v52_apply, agg2_apply, val_main_v51_apply, val_main_v50_apply, cidx51, cnt2_eq]
  rfl

/-- THE REFERENCE'S RESULT at `(r, c)`. -/
theorem result_apply (r : Fin 100000) (c : Fin 100) :
    val_main_v64 (F := Ideal) x0 x1 x2 x3 x4 x5 x6 x7 (ix2 r c)
      = outR (landsR x1) (srcR x1) (cntR x1) (fun r k => x0 (ix2 r k)) (fun k j => x2 (ix2 k j)) (fun k j => x3 (ix2 k j))
          (fun j => x4 (ix1 j)) (fun j c => x5 (ix2 j c)) (fun j c => x6 (ix2 j c)) (fun c => x7 (ix1 c)) r c := by
  rw [val_main_v64_apply, val_main_v63_apply, val_main_cst_11_apply, val_main_v62_apply, val_main_v61_apply, val_main_cst_10_apply,
    val_main_v60_apply, val_main_v59_apply, val_main_v58_apply, val_main_v55_apply, val_main_v53_apply, val_main_v54_apply,
    val_main_v57_apply, val_main_v56_apply, bidx57]
  simp only [lidx53, ridx53, lidx54, ridx54, mean2_apply, hid_apply]
  rw [Ideal.ofBits_def, ofBits_one]
  unfold outR
  simp only [Ideal.hostDivf_def, Ideal.addf_def, Ideal.hostUnary_exp_def, Ideal.hostNegf_def, Ideal.negf_def]

end Cert.ReferenceIdeal.RefValue

end
-- ==== Proof.LibFiniteEntry.lean ====
/-
  Finite entries are real numbers.

  On the extended reals the absolute value of x is max(x, -x); it is +infinity exactly when x is one of the two
  infinities. So an entry whose absolute value is strictly below +infinity is a real number. A program tests "every entry
  of x is finite" as  all(|x| < inf):  the comparison entry by entry against a broadcast +infinity, reduced by `and` over
  every axis from the constant true. If the test's one result is true, every entry passed the comparison, and so is real.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteEntry

open Idealize.ShloMosaic Idealize.ShloMosaic.ValueIdx

/-- The shape with no axes has one index. -/
instance : Subsingleton (⟨0, ![]⟩ : Shape).Idx := ⟨fun a b => funext fun d => d.elim0⟩

/-- An extended real whose absolute value is below +infinity is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- One "all entries are finite" test that came out true, read at an entry: the entry is a real number. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi (cmpf .olt (Host.absf x) (broadcastInDim s ![] hb (constant (F := Ideal) ⟨0, ![]⟩ .f32 0x7F800000#32)))
      init hr hu ix0 = 1#1)
    (i : s.Idx) : ∃ r : ℝ, x i = (r : EReal) := by
  have h1 := Host.reduce_andi_all _ init hr hu ix0 e i
  apply real_of_abs_lt_inf
  have hb' : broadcastInDim s ![] hb (constant (F := Ideal) ⟨0, ![]⟩ .f32 0x7F800000#32) i = Ideal.ofBits .f32 0x7F800000#32 :=
    broadcastInDim_apply _ hb _ i ix0 (fun a => a.elim0)
  rw [← hb']
  exact h1

end Cert.LibFiniteEntry

end
-- ==== Proof.Finite.lean ====
/-
  From the precondition to real-valued inputs.

  The precondition is the conjunction of seven tests, one per float input, each saying that every entry's absolute value is
  below +infinity. The conjunction is split one `and` at a time; each test read back at an entry says the entry is a real
  number. Five of the seven are used: the node features, the first layer's two weight matrices and bias, and the matrix
  that projects the hidden rows.
-/
import proofs.«127952_j55009941127683_2_alg».proof.Pre_finite_inputs
import proofs.«127952_j55009941127683_2_alg».proof.Proof.LibFiniteEntry
import proofs.«127952_j55009941127683_2_alg».proof.Proof.LibRealSums

noncomputable section

namespace Cert.FiniteInputs

open Idealize.ShloMosaic Idealize.ShloMosaic.ValueIdx Cert.RealSums Cert.Pre_finite_inputs Cert.LibFiniteEntry

variable [Cert.Pre_finite_inputs.Facts]
open Cert.Pre_finite_inputs.Facts

/-- THE PRECONDITION MAKES THE FIRST LAYER'S INPUTS AND THE PROJECTING MATRIX REAL. -/
theorem real_of_pre (a0 : FVec Ideal S100000x128 .f32) (a1 : IVec S2x640000 32) (a2 a3 : FVec Ideal S128x256 .f32)
    (a4 : FVec Ideal S256 .f32) (a5 a6 : FVec Ideal S256x100 .f32) (a7 : FVec Ideal S100 .f32)
    (h : Cert.Pre_finite_inputs.fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i)) ∧ (∀ i, IsReal (a5 i)) := by
  obtain ⟨h28, e7⟩ := IntOp.andi_eq_one.1 (congrFun h ix0)
  obtain ⟨h23, e6⟩ := IntOp.andi_eq_one.1 h28
  obtain ⟨h18, e5⟩ := IntOp.andi_eq_one.1 h23
  obtain ⟨h13, e4⟩ := IntOp.andi_eq_one.1 h18
  obtain ⟨h8, e3⟩ := IntOp.andi_eq_one.1 h13
  obtain ⟨e0, e2⟩ := IntOp.andi_eq_one.1 h8
  exact ⟨real_of_all a0 _ _ _ _ e0, real_of_all a2 _ _ _ _ e2, real_of_all a3 _ _ _ _ e3, real_of_all a4 _ _ _ _ e4,
    real_of_all a5 _ _ _ _ e5⟩

end Cert.FiniteInputs

end
-- ==== Proof.lean ====
/-
  Two programs for a two-layer mean-aggregating graph network (GraphSAGE) on 100000 nodes and 640000 edges agree, entry by
  entry, on the extended reals, when the float inputs are finite.

  Both programs compute, for every node r, the hidden row
      h(r, ·) = max(mean_1(r, ·) · W1_l + x(r, ·) · W1_r + b1, 0),   mean_1(r, k) = (∑_{e lands on r} x(src e, k)) / count(r),
  with count(r) the number of edges landing on r, or one if none does. The reference divides by count(r); the kernel
  multiplies by 1 / count(r): the same on every extended real, count(r) being a nonzero real. For the second layer the
  reference aggregates the hidden rows, divides by the count and multiplies by W2_l; the kernel multiplies the hidden rows by
  W2_l first (inside its first pipelined region), aggregates the projected rows on the host, and scales by 1 / count(r) in its
  second region. Moving the matrix product and the scale across the edge sum is distributivity, which on the extended reals
  needs real-valued data: the hidden rows are real because x, W1_l, W1_r and b1 are, and W2_l is real — this is where the
  precondition enters. The closing logistic function is the kernel's one operation and the reference's 1 / (1 + e^(-t)), the
  same function on the extended reals. Changes of float format are the identity in exact arithmetic.

  The kernel's value is read off its run: the last region's write-backs tile the result array, each block the body's value
  on the rows of the block; the reference's value is its operations composed, read at an entry.
-/
import proofs.«127952_j55009941127683_2_alg».proof.Defs
import proofs.«127952_j55009941127683_2_alg».proof.Proof.Gen.Kernel
import proofs.«127952_j55009941127683_2_alg».proof.Proof.Gen.Kernel.Skeleton
import proofs.«127952_j55009941127683_2_alg».proof.Proof.Gen.Kernel.Launch
import proofs.«127952_j55009941127683_2_alg».proof.Proof.Gen.Kernel.Points
import proofs.«127952_j55009941127683_2_alg».proof.Proof.Gen.Kernel.Frame
import proofs.«127952_j55009941127683_2_alg».proof.Proof.Gen.KernelIdeal
import proofs.«127952_j55009941127683_2_alg».proof.Proof.Gen.KernelIdeal.Skeleton
import proofs.«127952_j55009941127683_2_alg».proof.Proof.Gen.KernelIdeal.Launch
import proofs.«127952_j55009941127683_2_alg».proof.Proof.Gen.KernelIdeal.Points
import proofs.«127952_j55009941127683_2_alg».proof.Proof.Gen.KernelIdeal.Frame
import proofs.«127952_j55009941127683_2_alg».proof.Proof.Gen.ReferenceIdeal
import proofs.«127952_j55009941127683_2_alg».proof.Proof.Gen.Pre_finite_inputs
import proofs.«127952_j55009941127683_2_alg».proof.Proof.Gen.ReferenceIdeal.Read
import proofs.«127952_j55009941127683_2_alg».proof.Proof.RunValue
import proofs.«127952_j55009941127683_2_alg».proof.Proof.KernelValue
import proofs.«127952_j55009941127683_2_alg».proof.Proof.RefValue
import proofs.«127952_j55009941127683_2_alg».proof.Proof.Finite
import proofs.«127952_j55009941127683_2_alg».proof.Proof.Algebra
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The two programs build their index columns and counts by the same operations of the edge list -/

theorem dst_eq (a1 : Cert.KernelIdeal.HostSide.CI Cert.KernelIdeal.S2x640000) :
    Cert.ReferenceIdeal.Read.val_main_v12 (F := Ideal) a1 = Cert.KernelIdeal.HostSide.dstI a1 := rfl
theorem src_eq (a1 : Cert.KernelIdeal.HostSide.CI Cert.KernelIdeal.S2x640000) :
    Cert.ReferenceIdeal.Read.val_main_v9 (F := Ideal) a1 = Cert.KernelIdeal.HostSide.srcI a1 := rfl
theorem cnt_eq (a1 : Cert.KernelIdeal.HostSide.CI Cert.KernelIdeal.S2x640000) :
    Cert.ReferenceIdeal.Read.val_main_v19 (F := Ideal) a1 = Cert.KernelIdeal.HostSide.cnt a1 := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel ends with its result at the project-then-aggregate form, the idealized reference with its result
    at the aggregate-then-project form, of arguments that agree; the two forms are equal entry by entry. -/
theorem algebraic : Cert.algebraic_KernelIdeal_ReferenceIdeal := by
  intro m ρ m' ρ' hpre hagree
  refine ⟨fun c => Cert.KernelIdeal.Gen.W4 m ρ c (Proc.devRef .tc Cert.KernelIdeal.main_v40), Cert.KernelIdeal.RunValue.run_value m ρ, ?_⟩
  refine (θ_run Cert.ReferenceIdeal.defs _ _).mono (fun _ h c => ⟨(h c).1.trans ?_, (h c).2⟩) (Cert.ReferenceIdeal.Value.run (F := Ideal) m' ρ')
  obtain ⟨g0, g1, g2, g3, g4, g5, g6, g7⟩ := hagree c
  rw [Cert.ReferenceIdeal.Read.val_main_v64_eq, g0, g1, g2, g3, g4, g5, g6, g7]
  funext i
  obtain ⟨r, cc, rfl⟩ : ∃ (r : Fin 100000) (cc : Fin 100), i = ix2 r cc := ⟨i 0, i 1, eq_ix2 i⟩
  obtain ⟨hx, hwl, hwr, hb1, hw2⟩ := Cert.FiniteInputs.real_of_pre _ _ _ _ _ _ _ _ (hpre c)
  rw [Cert.ReferenceIdeal.RefValue.result_apply]
  refine Eq.trans ?_ (Cert.KernelIdeal.KernelValue.kernel_result m ρ c r cc).symm
  refine Eq.trans ?_ (Cert.SageAlgebra.outK_eq_outR _ _ _ _ (fun r => Cert.KernelIdeal.HostSide.cnt_real _ r) (fun r k => hx _) (fun k j => hwl _)
    (fun k j => hwr _) (fun j => hb1 _) (fun j c' => hw2 _) r cc).symm
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
